-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S50000x1024 : Shape := ⟨2, ![50000, 1024]⟩
abbrev S50000x768 : Shape := ⟨2, ![50000, 768]⟩
abbrev S1024x64 : Shape := ⟨2, ![1024, 64]⟩
abbrev S768x64 : Shape := ⟨2, ![768, 64]⟩
abbrev S2 : Shape := ⟨1, ![2]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S50000x1024 : S_.BroadcastsInDim S50000x1024 (![] : Fin 0 → Fin S50000x1024.rank)
  reducesTo_S50000x1024_S_d0_1 : S50000x1024.ReducesTo [0, 1] S_
  bcast_S_S50000x768 : S_.BroadcastsInDim S50000x768 (![] : Fin 0 → Fin S50000x768.rank)
  reducesTo_S50000x768_S_d0_1 : S50000x768.ReducesTo [0, 1] S_
  bcast_S_S1024x64 : S_.BroadcastsInDim S1024x64 (![] : Fin 0 → Fin S1024x64.rank)
  reducesTo_S1024x64_S_d0_1 : S1024x64.ReducesTo [0, 1] S_
  bcast_S_S768x64 : S_.BroadcastsInDim S768x64 (![] : Fin 0 → Fin S768x64.rank)
  reducesTo_S768x64_S_d0_1 : S768x64.ReducesTo [0, 1] S_
  bcast_S_S2 : S_.BroadcastsInDim S2 (![] : Fin 0 → Fin S2.rank)
  reducesTo_S2_S_d0 : S2.ReducesTo [0] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg9 : FVec F S2000000 .f32) (main_arg12 : FVec F S2000000 .f32) (main_arg15 : FVec F S2000000 .f32) (main_v33 : IVec S_ 1) : IVec S_ 1 :=
  let main_v34 : FVec F S2000000 .f32 := Host.absf main_arg9
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  let main_v39 : FVec F S2000000 .f32 := Host.absf main_arg12
  let main_cst_14 : FVec F S_ .f32 := constant S_ .f32 0x7F800000#32
  let main_v40 : FVec F S2000000 .f32 := broadcastInDim S2000000 ![] bcast_S_S2000000 main_cst_14
  let main_v41 : IVec S2000000 1 := cmpf .olt main_v39 main_v40
  let main_c_15 : IVec S_ 1 := constantI S_ 1 1#1
  let main_v42 : IVec S_ 1 := (fun x v => Host.reduce IntOp.andi x v reducesTo_S2000000_S_d0 h_S_) main_v41 main_c_15
  let main_v43 : IVec S_ 1 := andi main_v38 main_v42
  let main_v44 : FVec F S2000000 .f32 := Host.absf main_arg15
  let main_cst_16 : FVec F S_ .f32 := constant S_ .f32 0x7F800000#32
  let main_v45 : FVec F S2000000 .f32 := broadcastInDim S2000000 ![] bcast_S_S2000000 main_cst_16
  let main_v46 : IVec S2000000 1 := cmpf .olt main_v44 main_v45
  let main_c_17 : IVec S_ 1 := constantI S_ 1 1#1
  let main_v47 : IVec S_ 1 := (fun x v => Host.reduce IntOp.andi x v reducesTo_S2000000_S_d0 h_S_) main_v46 main_c_17
  let main_v48 : IVec S_ 1 := andi main_v43 main_v47
  main_v48

def fn_part1 {F : FTy → Type} [FloatOps F] (main_arg4 : FVec F S1024x64 .f32) (main_arg5 : FVec F S768x64 .f32) (main_arg6 : FVec F S2 .f32) (main_arg9 : FVec F S2000000 .f32) (main_arg12 : FVec F S2000000 .f32) (main_arg15 : FVec F S2000000 .f32) (main_v13 : IVec S_ 1) (main_v16 : IVec S50000x768 1) : IVec S_ 1 :=
  let main_c_5 : IVec S_ 1 := constantI S_ 1 1#1
  let main_v17 : IVec S_ 1 := (fun x v => Host.reduce IntOp.andi x v reducesTo_S50000x768_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg9 main_arg12 main_arg15 main_v33

def fn {F : FTy → Type} [FloatOps F] (main_arg0 : FVec F S100000x64 .f32) (main_arg1 : FVec F S50000x64 .f32) (main_arg2 : FVec F S50000x1024 .f32) (main_arg3 : FVec F S50000x768 .f32) (main_arg4 : FVec F S1024x64 .f32) (main_arg5 : FVec F S768x64 .f32) (main_arg6 : FVec F S2 .f32) (main_arg7 : IVec S2000000 32) (main_arg8 : IVec S2000000 32) (main_arg9 : FVec F S2000000 .f32) (main_arg10 : IVec S2000000 32) (main_arg11 : IVec S2000000 32) (main_arg12 : FVec F S2000000 .f32) (main_arg13 : IVec S2000000 32) (main_arg14 : IVec S2000000 32) (main_arg15 : FVec F S2000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x1024 .f32 := Host.absf main_arg2
  let main_cst_2 : FVec F S_ .f32 := constant S_ .f32 0x7F800000#32
  let main_v10 : FVec F S50000x1024 .f32 := broadcastInDim S50000x1024 ![] bcast_S_S50000x1024 main_cst_2
  let main_v11 : IVec S50000x1024 1 := cmpf .olt main_v9 main_v10
  let main_c_3 : IVec S_ 1 := constantI S_ 1 1#1
  let main_v12 : IVec S_ 1 := (fun x v => Host.reduce IntOp.andi x v reducesTo_S50000x1024_S_d0_1 h_S_) main_v11 main_c_3
  let main_v13 : IVec S_ 1 := andi main_v8 main_v12
  let main_v14 : FVec F S50000x768 .f32 := Host.absf main_arg3
  let main_cst_4 : FVec F S_ .f32 := constant S_ .f32 0x7F800000#32
  let main_v15 : FVec F S50000x768 .f32 := broadcastInDim S50000x768 ![] bcast_S_S50000x768 main_cst_4
  let main_v16 : IVec S50000x768 1 := cmpf .olt main_v14 main_v15
  fn_part1 (F := F) main_arg4 main_arg5 main_arg6 main_arg9 main_arg12 main_arg15 main_v13 main_v16
-- ==== Kernel.lean ====
abbrev S100000x64 : Shape := ⟨2, ![100000, 64]⟩
abbrev S50000x64 : Shape := ⟨2, ![50000, 64]⟩
abbrev S50000x1024 : Shape := ⟨2, ![50000, 1024]⟩
abbrev S50000x768 : Shape := ⟨2, ![50000, 768]⟩
abbrev S1024x64 : Shape := ⟨2, ![1024, 64]⟩
abbrev S768x64 : Shape := ⟨2, ![768, 64]⟩
abbrev S2 : Shape := ⟨1, ![2]⟩
abbrev S2000000 : Shape := ⟨1, ![2000000]⟩
abbrev S2000x1024 : Shape := ⟨2, ![2000, 1024]⟩
abbrev S2000x64 : Shape := ⟨2, ![2000, 64]⟩
abbrev S2000 : Shape := ⟨1, ![2000]⟩
abbrev S2000x1 : Shape := ⟨2, ![2000, 1]⟩
abbrev S2000x768 : Shape := ⟨2, ![2000, 768]⟩
abbrev S_ : Shape := ⟨0, ![]⟩
abbrev S1 : Shape := ⟨1, ![1]⟩
abbrev S150000x64 : Shape := ⟨2, ![150000, 64]⟩
abbrev S2000000x1 : Shape := ⟨2, ![2000000, 1]⟩
abbrev S2000000x64 : Shape := ⟨2, ![2000000, 64]⟩
abbrev S75000x128 : Shape := ⟨2, ![75000, 128]⟩
abbrev S5000x128 : Shape := ⟨2, ![5000, 128]⟩

abbrev nBuf : Space → Nat
  | .hbm => 121
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x1024, .f32⟩
  | .hbm, ⟨3, _⟩ => ⟨S50000x768, .f32⟩
  | .hbm, ⟨4, _⟩ => ⟨S1024x64, .f32⟩
  | .hbm, ⟨5, _⟩ => ⟨S768x64, .f32⟩
  | .hbm, ⟨6, _⟩ => ⟨S2, .f32⟩
  | .hbm, ⟨7, _⟩ => ⟨S2000000, .i32⟩
  | .hbm, ⟨8, _⟩ => ⟨S2000000, .i32⟩
  | .hbm, ⟨9, _⟩ => ⟨S2000000, .f32⟩
  | .hbm, ⟨10, _⟩ => ⟨S2000000, .i32⟩
  | .hbm, ⟨11, _⟩ => ⟨S2000000, .i32⟩
  | .hbm, ⟨12, _⟩ => ⟨S2000000, .f32⟩
  | .hbm, ⟨13, _⟩ => ⟨S2000000, .i32⟩
  | .hbm, ⟨14, _⟩ => ⟨S2000000, .i32⟩
  | .hbm, ⟨15, _⟩ => ⟨S2000000, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S2, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S2, .f32⟩
  | .hbm, ⟨30, _⟩ => ⟨S2, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2000000, .f32⟩
  | .hbm, ⟨36, _⟩ => ⟨S2000000, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2000000, .f32⟩
  | .hbm, ⟨42, _⟩ => ⟨S2000000, .f32⟩
  | .hbm, ⟨43, _⟩ => ⟨S150000x64, .f32⟩
  | .hbm, ⟨44, _⟩ => ⟨S150000x64, .f32⟩
  | .hbm, ⟨45, _⟩ => ⟨S150000x64, .f32⟩
  | .hbm, ⟨46, _⟩ => ⟨S2000000x1, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S_, .f32⟩
  | .hbm, ⟨59, _⟩ => ⟨S150000x64, .f32⟩
  | .hbm, ⟨60, _⟩ => ⟨S2000000x1, .i32⟩
  | .hbm, ⟨61, _⟩ => ⟨S150000x64, .f32⟩
  | .hbm, ⟨62, _⟩ => ⟨S2000000x1, .f32⟩
  | .hbm, ⟨63, _⟩ => ⟨S_, .i32⟩
  | .hbm, ⟨64, _⟩ => ⟨S2000000, .i32⟩
  | .hbm, ⟨65, _⟩ => ⟨S2000000, .i1⟩
  | .hbm, ⟨66, _⟩ => ⟨S_, .i32⟩
  | .hbm, ⟨67, _⟩ => ⟨S2000000, .i32⟩
  | .hbm, ⟨68, _⟩ => ⟨S2000000, .i32⟩
  | .hbm, ⟨69, _⟩ => ⟨S2000000, .i32⟩
  | .hbm, ⟨70, _⟩ => ⟨S2000000x1, .i32⟩
  | .hbm, ⟨71, _⟩ => ⟨S2000000x64, .f32⟩
  | .hbm, ⟨72, _⟩ => ⟨S2000000x64, .f32⟩
  | .hbm, ⟨73, _⟩ => ⟨S2000000x64, .f32⟩
  | .hbm, ⟨74, _⟩ => ⟨S_, .f32⟩
  | .hbm, ⟨75, _⟩ => ⟨S150000x64, .f32⟩
  | .hbm, ⟨76, _⟩ => ⟨S2000000x1, .i32⟩
  | .hbm, ⟨77, _⟩ => ⟨S150000x64, .f32⟩
  | .hbm, ⟨78, _⟩ => ⟨S2000000x1, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S2000000x64, .f32⟩
  | .hbm, ⟨88, _⟩ => ⟨S2000000x64, .f32⟩
  | .hbm, ⟨89, _⟩ => ⟨S2000000x64, .f32⟩
  | .hbm, ⟨90, _⟩ => ⟨S_, .f32⟩
  | .hbm, ⟨91, _⟩ => ⟨S150000x64, .f32⟩
  | .hbm, ⟨92, _⟩ => ⟨S2000000x1, .i32⟩
  | .hbm, ⟨93, _⟩ => ⟨S150000x64, .f32⟩
  | .hbm, ⟨94, _⟩ => ⟨S75000x128, .f32⟩
  | .hbm, ⟨95, _⟩ => ⟨S75000x128, .f32⟩
  | .hbm, ⟨96, _⟩ => ⟨S75000x128, .f32⟩
  | .hbm, ⟨97, _⟩ => ⟨S75000x128, .f32⟩
  | .hbm, ⟨98, _⟩ => ⟨S150000x64, .f32⟩
  | .hbm, ⟨99, _⟩ => ⟨S2000000x1, .f32⟩
  | .hbm, ⟨100, _⟩ => ⟨S_, .i32⟩
  | .hbm, ⟨101, _⟩ => ⟨S2000000, .i32⟩
  | .hbm, ⟨102, _⟩ => ⟨S2000000, .i1⟩
  | .hbm, ⟨103, _⟩ => ⟨S_, .i32⟩
  | .hbm, ⟨104, _⟩ => ⟨S2000000, .i32⟩
  | .hbm, ⟨105, _⟩ => ⟨S2000000, .i32⟩
  | .hbm, ⟨106, _⟩ => ⟨S2000000, .i32⟩
  | .hbm, ⟨107, _⟩ => ⟨S2000000x1, .i32⟩
  | .hbm, ⟨108, _⟩ => ⟨S2000000x64, .f32⟩
  | .hbm, ⟨109, _⟩ => ⟨S2000000x64, .f32⟩
  | .hbm, ⟨110, _⟩ => ⟨S2000000x64, .f32⟩
  | .hbm, ⟨111, _⟩ => ⟨S_, .f32⟩
  | .hbm, ⟨112, _⟩ => ⟨S150000x64, .f32⟩
  | .hbm, ⟨113, _⟩ => ⟨S2000000x1, .i32⟩
  | .hbm, ⟨114, _⟩ => ⟨S150000x64, .f32⟩
  | .hbm, ⟨115, _⟩ => ⟨S75000x128, .f32⟩
  | .hbm, ⟨116, _⟩ => ⟨S75000x128, .f32⟩
  | .hbm, ⟨117, _⟩ => ⟨S75000x128, .f32⟩
  | .hbm, ⟨118, _⟩ => ⟨S150000x64, .f32⟩
  | .hbm, ⟨119, _⟩ => ⟨S100000x64, .f32⟩
  | .hbm, ⟨120, _⟩ => ⟨S50000x64, .f32⟩
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S2000x64, .f32⟩
  | .local _ .vmem, ⟨4, _⟩ => ⟨S2000x64, .f32⟩
  | .local _ .vmem, ⟨5, _⟩ => ⟨S2000x768, .f32⟩
  | .local _ .vmem, ⟨6, _⟩ => ⟨S2000x768, .f32⟩
  | .local _ .vmem, ⟨7, _⟩ => ⟨S768x64, .f32⟩
  | .local _ .vmem, ⟨8, _⟩ => ⟨S2000x64, .f32⟩
  | .local _ .vmem, ⟨9, _⟩ => ⟨S2000x64, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  inb_S2000x768_S2000x768_0_0 : ∀ a, (![0, 0] : Fin 2 → Nat) a + S2000x768.size a ≤ S2000x768.size a
  h_S2000x768 : 0 < S2000x768.numel
  inb_S768x64_S768x64_0_0 : ∀ a, (![0, 0] : Fin 2 → Nat) a + S768x64.size a ≤ S768x64.size a
  h_S768x64 : 0 < S768x64.numel
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  bcast_S_S2000000 : S_.BroadcastsInDim S2000000 (![] : Fin 0 → Fin S2000000.rank)
  slices_S2_S1_1 : S2.Slices ![1] S1
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  shapeCasts_S150000x64_S75000x128 : S150000x64.ShapeCasts S75000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  dot_S2000x1024_S1024x64_S2000x64_1_0_0_1_n_n_wf : DotDims.WF S2000x1024 S1024x64 S2000x64 [1] [0] [0] [1] [] []
  dot_S2000x768_S768x64_S2000x64_1_0_0_1_n_n_wf : DotDims.WF S2000x768 S768x64 S2000x64 [1] [0] [0] [1] [] []
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S50000x768.size a
  hwx1_0 : ∀ i : grid1.Coords, EltTy.bits .f32 = 32 ∨ (Rect.block (s := S50000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S75000x128.size a
  hwx2_3 : ∀ i : grid2.Coords, EltTy.bits .f32 = 32 ∨ (Rect.block (s := S75000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S75000x128.size a
  hwx3_0 : ∀ i : grid3.Coords, EltTy.bits .f32 = 32 ∨ (Rect.block (s := S75000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S75000x128.size a
  hwx3_1 : ∀ i : grid3.Coords, EltTy.bits .f32 = 32 ∨ (Rect.block (s := S75000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S75000x128.size a
  hwx3_2 : ∀ i : grid3.Coords, EltTy.bits .f32 = 32 ∨ (Rect.block (s := S75000x128) S5000x128.size (cc3_transform_2 i) (hinb3_2 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_arg2) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S50000x1024 : Shape := ⟨2, ![50000, 1024]⟩
abbrev S50000x768 : Shape := ⟨2, ![50000, 768]⟩
abbrev S1024x64 : Shape := ⟨2, ![1024, 64]⟩
abbrev S768x64 : Shape := ⟨2, ![768, 64]⟩
abbrev S2 : Shape := ⟨1, ![2]⟩
abbrev S2000000 : Shape := ⟨1, ![2000000]⟩
abbrev S_ : Shape := ⟨0, ![]⟩
abbrev S1 : Shape := ⟨1, ![1]⟩
abbrev S50000 : Shape := ⟨1, ![50000]⟩
abbrev S50000x1 : Shape := ⟨2, ![50000, 1]⟩
abbrev S150000x64 : Shape := ⟨2, ![150000, 64]⟩
abbrev S2000000x1 : Shape := ⟨2, ![2000000, 1]⟩
abbrev S2000000x64 : Shape := ⟨2, ![2000000, 64]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S50000x64, .f32⟩
  | 2 => ⟨S50000x1024, .f32⟩
  | 3 => ⟨S50000x768, .f32⟩
  | 4 => ⟨S1024x64, .f32⟩
  | 5 => ⟨S768x64, .f32⟩
  | 6 => ⟨S2, .f32⟩
  | 7 => ⟨S2000000, .i32⟩
  | 8 => ⟨S2000000, .i32⟩
  | 9 => ⟨S2000000, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S50000x64, .f32⟩
  | 17 => ⟨S_, .f32⟩
  | 18 => ⟨S50000x64, .f32⟩
  | 19 => ⟨S50000x64, .i1⟩
  | 20 => ⟨S_, .f32⟩
  | 21 => ⟨S50000x64, .f32⟩
  | 22 => ⟨S50000x64, .f32⟩
  | 23 => ⟨S50000x64, .f32⟩
  | 24 => ⟨S50000x64, .f32⟩
  | 25 => ⟨S_, .f32⟩
  | 26 => ⟨S50000x64, .f32⟩
  | 27 => ⟨S50000x64, .i1⟩
  | 28 => ⟨S_, .f32⟩
  | 29 => ⟨S50000x64, .f32⟩
  | 30 => ⟨S50000x64, .f32⟩
  | 31 => ⟨S50000x64, .f32⟩
  | 32 => ⟨S_, .f32⟩
  | 33 => ⟨S_, .f32⟩
  | 34 => ⟨S_, .f32⟩
  | 35 => ⟨S_, .f32⟩
  | 36 => ⟨S1, .f32⟩
  | 37 => ⟨S2, .f32⟩
  | 38 => ⟨S2, .f32⟩
  | 39 => ⟨S2, .f32⟩
  | 40 => ⟨S_, .f32⟩
  | 41 => ⟨S_, .f32⟩
  | 42 => ⟨S1, .f32⟩
  | 43 => ⟨S2, .f32⟩
  | 44 => ⟨S2, .f32⟩
  | 45 => ⟨S50000x64, .f32⟩
  | 46 => ⟨S_, .f32⟩
  | 47 => ⟨S50000, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S50000x64, .f32⟩
  | 54 => ⟨S50000x64, .f32⟩
  | 55 => ⟨S150000x64, .f32⟩
  | 56 => ⟨S2000000x1, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S2000000x64, .f32⟩
  | 67 => ⟨S2000000x64, .f32⟩
  | 68 => ⟨S_, .f32⟩
  | 69 => ⟨S150000x64, .f32⟩
  | 70 => ⟨S2000000x1, .i32⟩
  | 71 => ⟨S150000x64, .f32⟩
  | 72 => ⟨S150000x64, .f32⟩
  | 73 => ⟨S2000000x1, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x64, .f32⟩
  | 83 => ⟨S2000000x64, .f32⟩
  | 84 => ⟨S2000000x64, .f32⟩
  | 85 => ⟨S_, .f32⟩
  | 86 => ⟨S150000x64, .f32⟩
  | 87 => ⟨S2000000x1, .i32⟩
  | 88 => ⟨S150000x64, .f32⟩
  | 89 => ⟨S50000x64, .f32⟩
  | 90 => ⟨S_, .f32⟩
  | 91 => ⟨S50000, .f32⟩
  | 92 => ⟨S50000x1, .f32⟩
  | 93 => ⟨S50000x1, .f32⟩
  | 94 => ⟨S_, .f32⟩
  | 95 => ⟨S50000x1, .f32⟩
  | 96 => ⟨S50000x1, .f32⟩
  | 97 => ⟨S50000x64, .f32⟩
  | 98 => ⟨S50000x64, .f32⟩
  | 99 => ⟨S150000x64, .f32⟩
  | 100 => ⟨S2000000x1, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .f32⟩
  | 110 => ⟨S2000000x64, .f32⟩
  | 111 => ⟨S2000000x64, .f32⟩
  | 112 => ⟨S_, .f32⟩
  | 113 => ⟨S150000x64, .f32⟩
  | 114 => ⟨S2000000x1, .i32⟩
  | 115 => ⟨S150000x64, .f32⟩
  | 116 => ⟨S150000x64, .f32⟩
  | 117 => ⟨S2000000x1, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S2000000x64, .f32⟩
  | _ => ⟨S100000x64, .f32⟩

abbrev hbmTy0_1 (i : Nat) : BufTy := match i % 128 with
  | 0 => ⟨S2000000x64, .f32⟩
  | 1 => ⟨S_, .f32⟩
  | 2 => ⟨S150000x64, .f32⟩
  | 3 => ⟨S2000000x1, .i32⟩
  | 4 => ⟨S150000x64, .f32⟩
  | 5 => ⟨S_, .f32⟩
  | 6 => ⟨S150000x64, .f32⟩
  | 7 => ⟨S150000x64, .f32⟩
  | 8 => ⟨S150000x64, .f32⟩
  | 9 => ⟨S_, .f32⟩
  | 10 => ⟨S150000x64, .f32⟩
  | 11 => ⟨S150000x64, .f32⟩
  | 12 => ⟨S150000x64, .f32⟩
  | 13 => ⟨S1, .f32⟩
  | 14 => ⟨S_, .f32⟩
  | 15 => ⟨S150000x64, .f32⟩
  | 16 => ⟨S150000x64, .f32⟩
  | 17 => ⟨S1, .f32⟩
  | 18 => ⟨S_, .f32⟩
  | 19 => ⟨S150000x64, .f32⟩
  | 20 => ⟨S150000x64, .f32⟩
  | 21 => ⟨S150000x64, .f32⟩
  | 22 => ⟨S2000000x1, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S2000000x64, .f32⟩
  | 34 => ⟨S_, .f32⟩
  | 35 => ⟨S150000x64, .f32⟩
  | 36 => ⟨S2000000x1, .i32⟩
  | 37 => ⟨S150000x64, .f32⟩
  | 38 => ⟨S150000x64, .f32⟩
  | 39 => ⟨S_, .f32⟩
  | 40 => ⟨S150000x64, .f32⟩
  | 41 => ⟨S150000x64, .f32⟩
  | 42 => ⟨S150000x64, .f32⟩
  | 43 => ⟨S100000x64, .f32⟩
  | 44 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_20 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_23 : Ref sig .tc := ⟨.hbm, 151, rfl⟩
abbrev main_v110 : Ref sig .tc := ⟨.hbm, 152, rfl⟩
abbrev main_v111 : Ref sig .tc := ⟨.hbm, 153, rfl⟩
abbrev main_c_24 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_25 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_26 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S2_S1_0 : S2.Slices ![0] S1
  shapeCasts_S1_S_ : S1.ShapeCasts S_
  slices_S2_S1_1 : S2.Slices ![1] S1
  slices_S150000x64_S100000x64_0_0 : S150000x64.Slices ![0, 0] S100000x64
  slices_S150000x64_S50000x64_100000_0 : S150000x64.Slices ![100000, 0] S50000x64
  dot_S50000x1024_S1024x64_S50000x64_1_0_0_1_n_n_wf : DotDims.WF S50000x1024 S1024x64 S50000x64 [1] [0] [0] [1] [] []
  dot_S50000x768_S768x64_S50000x64_1_0_0_1_n_n_wf : DotDims.WF S50000x768 S768x64 S50000x64 [1] [0] [0] [1] [] []
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def dot_S50000x1024_S1024x64_S50000x64_1_0_0_1_n_n : DotDims S50000x1024 S1024x64 S50000x64 where
  lhsContracting := [1]
  rhsContracting := [0]
  lhsNonContracting := [0]
  rhsNonContracting := [1]
  lhsBatch := []
  rhsBatch := []
  wf := dot_S50000x1024_S1024x64_S50000x64_1_0_0_1_n_n_wf
def dot_S50000x768_S768x64_S50000x64_1_0_0_1_n_n : DotDims S50000x768 S768x64 S50000x64 where
  lhsContracting := [1]
  rhsContracting := [0]
  lhsNonContracting := [0]
  rhsNonContracting := [1]
  lhsBatch := []
  rhsBatch := []
  wf := dot_S50000x768_S768x64_S50000x64_1_0_0_1_n_n_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.KernelRun.lean ====
/-
  The idealized kernel's run with every buffer named.

  @main is two projection regions, a stretch of host operations, the mixing region, a second stretch, the residual
  region and a short tail. The generated frame names the buffer contents at each of those boundaries (`W0` … `W7`, each
  read off the previous one) and runs the seven segments; here the same run is stated with the whole final memory:
  every buffer that outlives @main ends at its `W7` contents. The two results and the sixteen arguments are instances.
-/
import proofs.«173485_j29618094473950_2_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives @main at the
    contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.RunAll

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.Spec.lean ====
/-
  The shared vocabulary of the two programs, at the extended reals.

  Both programs build node embeddings of a bipartite user/item graph (100000 users, 50000 items, 64 features):
  * item features of two modalities are projected (a matrix product), passed through a leaky ramp and scaled to unit
    length row by row (`projNorm`);
  * a sparse matrix given by 2000000 triples (row, column, value) multiplies a node table (`spmm`): entry `(n, q)` is the
    sum, over the triples whose row is `n`, of the value times the table's entry at the triple's column and `q`;
  * the two modality products are mixed with weights `softmax(modal_weight)`.
  The reference mixes `w₀ · (B + c · A₁) + w₁ · (B + c · A₂)` and then adds the product of the adjacency with the mix and half the
  mix; the kernel folds `w · c` into the triples' values, adds `B + A₁' + A₂'`, and computes `M · 3/2 + adj · M`.
-/
import Idealize.ShloMosaic.PureOps.Ideal
import Idealize.ShloMosaic.Lib.ValueIdx
import proofs.«173485_j29618094473950_2_alg».proof.Proof.LibRowGather
import proofs.«173485_j29618094473950_2_alg».proof.Proof.LibRowScatterAdd

noncomputable section

namespace Cert.Modal

open Idealize.ShloMosaic Idealize.ShloMosaic.ValueIdx

/-! ## Shapes -/

abbrev Sh0 : Shape := ⟨0, ![]⟩
abbrev Sh1 : Shape := ⟨1, ![1]⟩
abbrev Sh2 : Shape := ⟨1, ![2]⟩
abbrev ShU : Shape := ⟨2, ![100000, 64]⟩
abbrev ShI : Shape := ⟨2, ![50000, 64]⟩
abbrev ShN : Shape := ⟨2, ![150000, 64]⟩
abbrev ShL : Shape := ⟨2, ![75000, 128]⟩
abbrev ShE : Shape := ⟨1, ![2000000]⟩
abbrev ShE1 : Shape := ⟨2, ![2000000, 1]⟩
abbrev ShEC : Shape := ⟨2, ![2000000, 64]⟩

theorem hred : Sh2.ReducesTo [0] Sh0 := by decide
theorem hnum0 : 0 < Sh0.numel := by decide
theorem hb_0_1 : Sh0.BroadcastsInDim Sh1 (![] : Fin 0 → Fin Sh1.rank) := by decide
theorem hb_1_2 : Sh1.BroadcastsInDim Sh2 (![0] : Fin 1 → Fin Sh2.rank) := by decide
theorem hsl0 : Sh2.Slices ![0] Sh1 := by decide
theorem hsl1 : Sh2.Slices ![1] Sh1 := by decide
theorem hsc10 : Sh1.ShapeCasts Sh0 := by decide
theorem hb_0_E : Sh0.BroadcastsInDim ShE (![] : Fin 0 → Fin ShE.rank) := by decide
theorem hb_0_N : Sh0.BroadcastsInDim ShN (![] : Fin 0 → Fin ShN.rank) := by decide
theorem hb_E_E1 : ShE.BroadcastsInDim ShE1 (![0] : Fin 1 → Fin ShE1.rank) := by decide
theorem hb_E1_EC : ShE1.BroadcastsInDim ShEC (![0, 1] : Fin 2 → Fin ShEC.rank) := by decide
theorem hcat : Shape.Concatenates [ShU, ShI] ShN 0 := by decide
theorem hwfG : GatherDims.WF ShN ShE1 ShEC [1] [0] [] [0] [] 1 ![1, 64] := by decide
theorem hwfS : ScatterDims.WF ShN ShE1 ShEC [1] [0] [0] 1 := by decide
theorem hslU : ShN.Slices ![0, 0] ShU := by decide
theorem hslI : ShN.Slices ![100000, 0] ShI := by decide
theorem hscNL : ShN.ShapeCasts ShL := by decide
theorem hscLN : ShL.ShapeCasts ShN := by decide

/-! ## Finite arrays -/

/-- Every entry is a real number (neither infinity). -/
def IsReal {S : Shape} (x : S.Idx → EReal) : Prop := ∀ i, ∃ r : ℝ, x i = (r : EReal)

/-! ## Projection, leaky ramp, unit rows -/

/-- The leaky ramp: the identity on the nonnegative, a fixed small slope below zero. -/
def leaky (y : EReal) : EReal := if (0 : EReal) ≤ y then y else Ideal.ofBits .f32 0x3E4CCCCD#32 * y

/-- A projected feature: row `p` of the embedding times column `q` of the matrix, through the ramp. -/
def feat (K : Nat) (x : FVec Ideal ⟨2, ![50000, K]⟩ .f32) (w : FVec Ideal ⟨2, ![K, 64]⟩ .f32) (p : Fin 50000) (q : Fin 64) : EReal :=
  leaky (∑ k : Fin K, x (ix2 p k) * w (ix2 k q))

/-- The feature row scaled to unit length: divided by the larger of its Euclidean norm and a tiny floor. -/
def projNormAt (K : Nat) (x : FVec Ideal ⟨2, ![50000, K]⟩ .f32) (w : FVec Ideal ⟨2, ![K, 64]⟩ .f32) (p : Fin 50000) (q : Fin 64) : EReal :=
  Ideal.div (feat K x w p q)
    (max (Ideal.sqrt (∑ d : Fin 64, feat K x w p d * feat K x w p d)) (Ideal.ofBits .f32 0x2B8CBCCC#32))

def projNorm (K : Nat) (x : FVec Ideal ⟨2, ![50000, K]⟩ .f32) (w : FVec Ideal ⟨2, ![K, 64]⟩ .f32) : FVec Ideal ShI .f32 :=
  fun j => projNormAt K x w (j 0) (j 1)

theorem projNorm_apply (K : Nat) (x : FVec Ideal ⟨2, ![50000, K]⟩ .f32) (w : FVec Ideal ⟨2, ![K, 64]⟩ .f32) (p : Fin 50000) (q : Fin 64) :
    projNorm K x w (ix2 p q) = projNormAt K x w p q := rfl

/-! ## The sparse product, as both programs spell it -/

/-- Column indices with the wrap of negative ones: `c < 0 ↦ c + 150000`. -/
def wrapIdx (cols : IVec ShE 32) : IVec ShE 32 :=
  select (cmpi .slt cols (broadcastInDim ShE ![] hb_0_E (constantI Sh0 32 0#32)))
    (addi cols (broadcastInDim ShE ![] hb_0_E (constantI Sh0 32 150000#32))) cols

/-- `spmm rows cols vals x`: gather the rows of `x` named by the columns, scale row `e` by `vals e`, and add each into the
    row of a zero table named by `rows`. -/
def spmm (rows cols : IVec ShE 32) (vals : FVec Ideal ShE .f32) (x : FVec Ideal ShN .f32) : FVec Ideal ShN .f32 :=
  Host.scatterAdd (F := Ideal) (Cert.RowScatter.rowDims 150000 2000000 64 hwfS)
    (broadcastInDim ShN ![] hb_0_N (constant (F := Ideal) Sh0 .f32 0x00000000#32))
    (broadcastInDim ShE1 ![0] hb_E_E1 rows)
    (mulf (broadcastInDim ShEC ![0, 1] hb_E1_EC (broadcastInDim ShE1 ![0] hb_E_E1 vals))
      (Host.gather (Cert.RowGather.rowDims 150000 2000000 64 hwfG) x (broadcastInDim ShE1 ![0] hb_E_E1 (wrapIdx cols))))

/-- Users stacked over items. -/
def cat (u : FVec Ideal ShU .f32) (z : FVec Ideal ShI .f32) : FVec Ideal ShN .f32 :=
  concatenate ShN 0 [⟨ShU, u⟩, ⟨ShI, z⟩] hcat

/-! ## The modal weights -/

def smax (a : FVec Ideal Sh2 .f32) : FVec Ideal Sh0 .f32 :=
  maximumf (constant (F := Ideal) Sh0 .f32 0xFF800000#32)
    (Host.reduce FloatOps.maximumf a (constant (F := Ideal) Sh0 .f32 0xFF800000#32) hred hnum0)

def sexp (a : FVec Ideal Sh2 .f32) : FVec Ideal Sh2 .f32 :=
  Host.exp (subf a (broadcastInDim Sh2 ![0] hb_1_2 (broadcastInDim Sh1 ![] hb_0_1 (smax a))))

/-- `softmax(a)` of the two modal weights. -/
def soft (a : FVec Ideal Sh2 .f32) : FVec Ideal Sh2 .f32 :=
  Host.divf (sexp a) (broadcastInDim Sh2 ![0] hb_1_2 (broadcastInDim Sh1 ![] hb_0_1
    (Host.reduceAdd (sexp a) (constant (F := Ideal) Sh0 .f32 0x00000000#32) hred hnum0)))

def w0 (a : FVec Ideal Sh2 .f32) : FVec Ideal Sh0 .f32 := shapeCast Sh0 (extractStridedSlice Sh1 ![0] (soft a) hsl0) hsc10
def w1 (a : FVec Ideal Sh2 .f32) : FVec Ideal Sh0 .f32 := shapeCast Sh0 (extractStridedSlice Sh1 ![1] (soft a) hsl1) hsc10

/-- The modal adjacency weight, a shared literal. -/
def cw : FVec Ideal Sh0 .f32 := constant (F := Ideal) Sh0 .f32 0x3E4CCCCD#32

/-! ## The reference's arrays -/

def refModal (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32) : FVec Ideal ShN .f32 :=
  addf
    (mulf (broadcastInDim ShN ![] hb_0_N (w0 a))
      (addf (spmm r7 c8 v9 (cat u i)) (mulf (broadcastInDim ShN ![] hb_0_N cw) (spmm r10 c11 v12 (cat u P1)))))
    (mulf (broadcastInDim ShN ![] hb_0_N (w1 a))
      (addf (spmm r7 c8 v9 (cat u i)) (mulf (broadcastInDim ShN ![] hb_0_N cw) (spmm r13 c14 v15 (cat u P2)))))

def refFinal (M : FVec Ideal ShN .f32) (r7 c8 : IVec ShE 32) (v9 : FVec Ideal ShE .f32) : FVec Ideal ShN .f32 :=
  addf (addf M (spmm r7 c8 v9 M))
    (mulf (broadcastInDim ShN ![] hb_0_N (constant (F := Ideal) Sh0 .f32 0x3F000000#32)) M)

/-! ## The kernel's arrays -/

/-- The triples' values with a modal weight and the adjacency weight folded in. -/
def scaleVals (v : FVec Ideal ShE .f32) (w : FVec Ideal Sh0 .f32) : FVec Ideal ShE .f32 :=
  mulf v (broadcastInDim ShE ![] hb_0_E (mulf w cw))

def kerModal (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32) : FVec Ideal ShN .f32 :=
  fun j => (spmm r7 c8 v9 (cat u i) j + spmm r10 c11 (scaleVals v12 (w0 a)) (cat u P1) j)
    + spmm r13 c14 (scaleVals v15 (w1 a)) (cat u P2) j

def kerFinal (M : FVec Ideal ShN .f32) (r7 c8 : IVec ShE 32) (v9 : FVec Ideal ShE .f32) : FVec Ideal ShN .f32 :=
  fun j => M j * Ideal.ofBits .f32 0x3FC00000#32 + spmm r7 c8 v9 M j

end Cert.Modal

end
-- ==== Proof.KernelHost.lean ====
/-
  The kernel's three stretches of host operations, read at the buffers the regions take.

  Between the projection regions and the mixing region the host computes the two modal weights, folds each weight and the
  adjacency weight into its modality's triple values, stacks users over items three times (plain items and the two
  projected modalities), takes the three sparse products and views each [150000, 64] product as [75000, 128]. Between the
  mixing region and the residual region it views the mix back as [150000, 64], multiplies it by the adjacency, and views
  both as [75000, 128] again. The tail views the residual region's result as [150000, 64] and cuts it into users and items.
  Each stretch is read at an arbitrary valuation `W` of the buffers it starts from.
-/
import proofs.«173485_j29618094473950_2_alg».proof.Proof.Gen.KernelIdeal.Frame
import proofs.«173485_j29618094473950_2_alg».proof.Proof.Spec

set_option maxRecDepth 16384

noncomputable section

namespace Cert.Modal.Ker

open Idealize.ShloMosaic Idealize.ShloMosaic.TcCoe Idealize.ShloMosaic.Tactic Idealize.ShloMosaic.StableHlo
open Cert.KernelIdeal Cert.KernelIdeal.Gen Cert.Modal

variable (W : Valuation τ sig (Elt Ideal))

/-! ## Before the mixing region -/

set_option maxHeartbeats 4000000 in
/-- The adjacency times users-over-items, on the wide view. -/
theorem hostOps2_v64 :
    StableHlo.after hostOps2 W (Proc.devRef .tc main_v64)
      = shapeCast ShL (spmm (W (Proc.devRef .tc main_arg7)) (W (Proc.devRef .tc main_arg8)) (W (Proc.devRef .tc main_arg9))
          (cat (W (Proc.devRef .tc main_arg0)) (W (Proc.devRef .tc main_arg1)))) hscNL := by
  after_results_simp
  rfl

set_option maxHeartbeats 4000000 in
/-- The image adjacency, its values scaled by the first weight, times users-over-projected-images, on the wide view. -/
theorem hostOps2_v65 :
    StableHlo.after hostOps2 W (Proc.devRef .tc main_v65)
      = shapeCast ShL (spmm (W (Proc.devRef .tc main_arg10)) (W (Proc.devRef .tc main_arg11)) (scaleVals (W (Proc.devRef .tc main_arg12)) (w0 (W (Proc.devRef .tc main_arg6))))
          (cat (W (Proc.devRef .tc main_arg0)) (W (Proc.devRef .tc main_v0)))) hscNL := by
  after_results_simp
  rfl

set_option maxHeartbeats 4000000 in
/-- The text adjacency, its values scaled by the second weight, times users-over-projected-texts, on the wide view. -/
theorem hostOps2_v66 :
    StableHlo.after hostOps2 W (Proc.devRef .tc main_v66)
      = shapeCast ShL (spmm (W (Proc.devRef .tc main_arg13)) (W (Proc.devRef .tc main_arg14)) (scaleVals (W (Proc.devRef .tc main_arg15)) (w1 (W (Proc.devRef .tc main_arg6))))
          (cat (W (Proc.devRef .tc main_arg0)) (W (Proc.devRef .tc main_v1)))) hscNL := by
  after_results_simp
  rfl

set_option maxHeartbeats 4000000 in
/-- The stretch writes none of the adjacency's three argument arrays. -/
theorem hostOps2_adj :
    StableHlo.after hostOps2 W (Proc.devRef .tc main_arg7) = (W (Proc.devRef .tc main_arg7))
    ∧ StableHlo.after hostOps2 W (Proc.devRef .tc main_arg8) = (W (Proc.devRef .tc main_arg8))
    ∧ StableHlo.after hostOps2 W (Proc.devRef .tc main_arg9) = (W (Proc.devRef .tc main_arg9)) := by
  refine ⟨?_, ?_, ?_⟩ <;> after_results_simp

/-! ## Between the mixing region and the residual region -/

/-- The mix, viewed narrow and wide again. -/
theorem hostOps3_v82 :
    StableHlo.after hostOps3 W (Proc.devRef .tc main_v82)
      = shapeCast ShL (shapeCast ShN (W (Proc.devRef .tc main_v67)) hscLN) hscNL := by
  after_results_simp
  rfl

/-- The adjacency times the mix, on the wide view. -/
theorem hostOps3_v83 :
    StableHlo.after hostOps3 W (Proc.devRef .tc main_v83)
      = shapeCast ShL (spmm (W (Proc.devRef .tc main_arg7)) (W (Proc.devRef .tc main_arg8)) (W (Proc.devRef .tc main_arg9))
          (shapeCast ShN (W (Proc.devRef .tc main_v67)) hscLN)) hscNL := by
  after_results_simp
  rfl

/-! ## The tail -/

theorem hostOps4_v86 :
    StableHlo.after hostOps4 W (Proc.devRef .tc main_v86)
      = extractStridedSlice ShU ![0, 0] (shapeCast ShN (W (Proc.devRef .tc main_v84)) hscLN) hslU := by
  after_results_simp
  rfl

theorem hostOps4_v87 :
    StableHlo.after hostOps4 W (Proc.devRef .tc main_v87)
      = extractStridedSlice ShI ![100000, 0] (shapeCast ShN (W (Proc.devRef .tc main_v84)) hscLN) hslI := by
  after_results_simp
  rfl

end Cert.Modal.Ker

end
-- ==== Proof.AddRegion2.lean ====
/-
  The third region of the kernel: three tables added, on their lane-dense [75000, 128] views.

  The region walks 15 grid points. At point `t` every window holds rows `5000 t … 5000 t + 4999` of its array (block index
  `(t, 0)`, blocks of 5000 rows and all 128 lanes), and the body stores, entry by entry, the first block plus the second plus
  the third. The fifteen blocks tile the 75000 rows, so after the region the output array is, entry by entry, the sum of
  the three input arrays as the region found them.
-/
import proofs.«173485_j29618094473950_2_alg».proof.Proof.Gen.KernelIdeal.Frame
import Idealize.ShloMosaic.Lib.Pipeline.Value
import Idealize.ShloMosaic.Lib.ValueIdx

set_option maxRecDepth 16384

noncomputable section

namespace Cert.Modal.Add

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's one store starts at the block's origin. -/
theorem origin2 : (![0, 0] : Fin 2 → Nat) = fun _ => 0 := funext fun a => by fin_cases a <;> rfl

/-- The three arrays the region reads, added entry by entry. -/
abbrev sum3 (a0 a1 a2 : S75000x128.Idx → EReal) : S75000x128.Idx → EReal := fun i => (a0 i + a1 i) + a2 i

/-- What the body stores is the sum of its three loaded blocks: its reshapes are to the same shape. -/
theorem pay2_eq (x0 x1 x2 : Vec Ideal S5000x128 .f32) : k2_pay1 x0 x1 x2 = addf (addf x0 x1) x2 := by
  unfold k2_pay1
  simp only [shapeCast_self]

/-- At point `t` every window's block index is `(t, 0)` (decided over the 15 points). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the entrywise sum of the three arrays. -/
theorem flushed2_eq (c : Dev nD) (t : Fin cfg2.N) :
    (dat2 V c).flushed 3 t
      = ((cfg2.win 3).blk t).view.read (Elt Ideal) (sum3 (V c main_v64) (V c main_v65) (V c main_v66)) := by
  show (cfg2.win 3).cut (grid2.coords t) ((dat2 V c).after 3 t) = _
  rw [after2_3]
  unfold out2_3
  rw [View.canon_unit_zero origin2]
  simp only [View.ld_unit_zero (S := S5000x128) origin2]
  rw [pay2_eq]
  obtain ⟨e00, e01, e10, e11, e20, e21, e30, e31⟩ := block_index2 t
  funext j
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 128 + 1 * (j 1).val = win2_3.index t (1 : Fin 2) * 128 + 1 * (j 1).val; omega
  have key : ∀ a0 a1 a2 : S75000x128.Idx → EReal,
      (a0 (((cfg2.win 0).blk t).view.emb j) + a1 (((cfg2.win 1).blk t).view.emb j)) + a2 (((cfg2.win 2).blk t).view.emb j)
        = sum3 a0 a1 a2 (((cfg2.win 3).blk t).view.emb j) := by
    intro a0 a1 a2
    rw [h0, h1, h2]
  exact key (V c main_v64) (V c main_v65) (V c main_v66)

/-- An entry of the output array is in point `t`'s block iff each coordinate is in the block's range on its axis. -/
theorem mem_blk2 (t : Fin cfg2.N) (i : S75000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v67).slice (win2_3.rect t)).set ↔ _
  rw [View.set_slice_whole, Rect.mem_set_unit]
  exact Iff.rfl

/-- Row `r` of the output array is in the block of point `r / 5000`: the fifteen blocks tile the array. -/
theorem cover2 (i : S75000x128.Idx) :
    ∃ t : Fin cfg2.N, (cfg2.win 3).flush t = true ∧ i ∈ ((cfg2.win 3).blk t).view.set := by
  have hi0 : (i 0).val < 75000 := (i 0).isLt
  have hi1 : (i 1).val < 128 := (i 1).isLt
  have hN : grid2.N = 15 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, e30, e31⟩ := block_index2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- After the region the output array is the three input arrays, as the region found them, added entry by entry. -/
theorem region2_final (c : Dev nD) :
    (dat2 (F := Ideal) V c).arrAt 3 cfg2.N
      = sum3 (V c main_v64) (V c main_v65) (V c main_v66) :=
  (dat2 V c).arrAt_eq_of_cover 3 (sum3 (V c main_v64) (V c main_v65) (V c main_v66))
    (fun t _ => flushed2_eq V c t) cover2

end Cert.Modal.Add

end
-- ==== Proof.AddRegion3.lean ====
/-
  The fourth region of the kernel: a table scaled by 3/2 and added to another, on their lane-dense [75000, 128] views.

  The region walks 15 grid points. At point `t` every window holds rows `5000 t … 5000 t + 4999` of its array (block index
  `(t, 0)`, blocks of 5000 rows and all 128 lanes), and the body stores, entry by entry, the first block times the
  constant whose word is 0x3FC00000 plus the second block. The fifteen blocks tile the 75000 rows, so after the region the
  output array is, entry by entry, the first input array times that constant plus the second, as the region found them.
-/
import proofs.«173485_j29618094473950_2_alg».proof.Proof.Gen.KernelIdeal.Frame
import Idealize.ShloMosaic.Lib.Pipeline.Value
import Idealize.ShloMosaic.Lib.ValueIdx

set_option maxRecDepth 16384

noncomputable section

namespace Cert.Modal.Add

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's one store starts at the block's origin. -/
theorem origin3 : (![0, 0] : Fin 2 → Nat) = fun _ => 0 := funext fun a => by fin_cases a <;> rfl

/-- The first array scaled by the constant, plus the second, entry by entry. -/
abbrev scaleAdd (a0 a1 : S75000x128.Idx → EReal) : S75000x128.Idx → EReal :=
  fun i => a0 i * Ideal.ofBits .f32 0x3FC00000#32 + a1 i

/-- What the body stores, at an entry: its first loaded block times the constant plus its second (its reshapes are to
    the same shape, and the broadcast constant reads the same everywhere). -/
theorem pay3_eq (x0 x1 : Vec Ideal S5000x128 .f32) :
    k3_pay1 x0 x1 = fun j => x0 j * Ideal.ofBits .f32 0x3FC00000#32 + x1 j := by
  unfold k3_pay1
  simp only [shapeCast_self]
  rfl

/-- At point `t` every window's block index is `(t, 0)` (decided over the 15 points). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the first array scaled plus the second. -/
theorem flushed3_eq (c : Dev nD) (t : Fin cfg3.N) :
    (dat3 V c).flushed 2 t
      = ((cfg3.win 2).blk t).view.read (Elt Ideal) (scaleAdd (V c main_v82) (V c main_v83)) := by
  show (cfg3.win 2).cut (grid3.coords t) ((dat3 V c).after 2 t) = _
  rw [after3_2]
  unfold out3_2
  rw [View.canon_unit_zero origin3]
  simp only [View.ld_unit_zero (S := S5000x128) origin3]
  rw [pay3_eq]
  obtain ⟨e00, e01, e10, e11, e20, e21⟩ := block_index3 t
  funext j
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  have key : ∀ a0 a1 : S75000x128.Idx → EReal,
      a0 (((cfg3.win 0).blk t).view.emb j) * Ideal.ofBits .f32 0x3FC00000#32 + a1 (((cfg3.win 1).blk t).view.emb j)
        = scaleAdd a0 a1 (((cfg3.win 2).blk t).view.emb j) := by
    intro a0 a1
    rw [h0, h1]
  exact key (V c main_v82) (V c main_v83)

/-- An entry of the output array is in point `t`'s block iff each coordinate is in the block's range on its axis. -/
theorem mem_blk3 (t : Fin cfg3.N) (i : S75000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v84).slice (win3_2.rect t)).set ↔ _
  rw [View.set_slice_whole, Rect.mem_set_unit]
  exact Iff.rfl

/-- Row `r` of the output array is in the block of point `r / 5000`: the fifteen blocks tile the array. -/
theorem cover3 (i : S75000x128.Idx) :
    ∃ t : Fin cfg3.N, (cfg3.win 2).flush t = true ∧ i ∈ ((cfg3.win 2).blk t).view.set := by
  have hi0 : (i 0).val < 75000 := (i 0).isLt
  have hi1 : (i 1).val < 128 := (i 1).isLt
  have hN : grid3.N = 15 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, e20, e21⟩ := block_index3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- After the region the output array is the first input array times the constant plus the second, entry by entry, as
    the region found them. -/
theorem region3_final (c : Dev nD) :
    (dat3 (F := Ideal) V c).arrAt 2 cfg3.N = scaleAdd (V c main_v82) (V c main_v83) :=
  (dat3 V c).arrAt_eq_of_cover 2 (scaleAdd (V c main_v82) (V c main_v83))
    (fun t _ => flushed3_eq V c t) cover3

end Cert.Modal.Add

end
-- ==== Proof.ReshapeViews.lean ====
/-
  Pointwise arithmetic commutes with a row-major reshape there and back.

  The node table [150000, 64] and its lane-dense view [75000, 128] hold the same numbers at the same flat position.
  So a sum of three tables, or a table scaled and added to another, computed entry by entry on the [75000, 128] views and
  then viewed again as [150000, 64], is the same sum computed entry by entry on the tables themselves: reshaping there and
  back is the identity on every operand.
-/
import Idealize.ShloMosaic.Lib.Pipeline.Value
import Idealize.ShloMosaic.Lib.ValueIdx
import proofs.«173485_j29618094473950_2_alg».proof.Proof.Spec

noncomputable section

namespace Cert.Modal

open Idealize.ShloMosaic Idealize.ShloMosaic.ValueIdx

/-- A table viewed as [75000, 128] and then as [150000, 64] again, read at an entry, is the table at that entry. -/
theorem reshape_back_apply (a : FVec Ideal ShN .f32) (j : ShN.Idx) :
    shapeCast ShL a hscNL (Shape.reshapeEquiv hscLN j) = a j :=
  congrFun (shapeCast_shapeCast a hscNL hscLN) j

/-- Three tables added entry by entry on their [75000, 128] views, viewed back as [150000, 64]: the three tables added
    entry by entry. -/
theorem reshape_add3 (a b d : FVec Ideal ShN .f32) :
    shapeCast ShN (fun i => (shapeCast ShL a hscNL i + shapeCast ShL b hscNL i) + shapeCast ShL d hscNL i : FVec Ideal ShL .f32) hscLN
      = fun j => (a j + b j) + d j := by
  funext j
  show (shapeCast ShL a hscNL (Shape.reshapeEquiv hscLN j) + shapeCast ShL b hscNL (Shape.reshapeEquiv hscLN j))
      + shapeCast ShL d hscNL (Shape.reshapeEquiv hscLN j) = _
  rw [reshape_back_apply, reshape_back_apply, reshape_back_apply]

/-- A table scaled by a constant and added to another, entry by entry on the [75000, 128] views, viewed back as
    [150000, 64]: the same scaling and addition on the tables. -/
theorem reshape_fma (a b : FVec Ideal ShN .f32) (k : EReal) :
    shapeCast ShN (fun i => shapeCast ShL a hscNL i * k + shapeCast ShL b hscNL i : FVec Ideal ShL .f32) hscLN
      = fun j => a j * k + b j := by
  funext j
  show shapeCast ShL a hscNL (Shape.reshapeEquiv hscLN j) * k + shapeCast ShL b hscNL (Shape.reshapeEquiv hscLN j) = _
  rw [reshape_back_apply, reshape_back_apply]

end Cert.Modal

end
-- ==== Proof.KernelValue.lean ====
/-
  The idealized kernel's two results as functions of its arguments.

  Reading the boundaries of @main backwards: the tail cuts the residual region's array, viewed [150000, 64], into users
  and items; the residual region computes, on the wide view, the mix times 3/2 plus the adjacency's product with the
  mix; the second stretch makes that product from the mixing region's array; the mixing region adds, on the wide view,
  the three sparse products the first stretch makes; and the first stretch takes the two projection regions' arrays
  and the arguments. A pointwise operation on the wide [75000, 128] view of [150000, 64] arrays is the same operation
  on the arrays themselves, so the views cancel.
-/
import proofs.«173485_j29618094473950_2_alg».proof.Proof.KernelHost
import proofs.«173485_j29618094473950_2_alg».proof.Proof.AddRegion2
import proofs.«173485_j29618094473950_2_alg».proof.Proof.AddRegion3
import proofs.«173485_j29618094473950_2_alg».proof.Proof.ReshapeViews

set_option maxRecDepth 16384

noncomputable section

namespace Cert.Modal.Ker

open Idealize.ShloMosaic Idealize.ShloMosaic.TcCoe Idealize.ShloMosaic.Tactic Idealize.ShloMosaic.StableHlo
open Cert.KernelIdeal Cert.KernelIdeal.Gen Cert.Modal

variable (m : (ℓ : Loc nD τ sig) → Buf (Elt Ideal) ℓ) (ρ : Dev nD → PrngReg) (c : Dev nD)

/-- A buffer neither projection region writes holds its launch contents when the first stretch begins. -/
theorem W2_keep (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-- The adjacency's three argument arrays as the second stretch finds them. -/
theorem W4_adj : W4 m ρ c (Proc.devRef .tc main_arg7) = (m ((c : Thread nD τ).loc main_arg7))
    ∧ W4 m ρ c (Proc.devRef .tc main_arg8) = (m ((c : Thread nD τ).loc main_arg8))
    ∧ W4 m ρ c (Proc.devRef .tc main_arg9) = (m ((c : Thread nD τ).loc main_arg9)) :=
  ⟨(W4_of_ne m ρ c main_arg7 (by decide)).trans ((hostOps2_adj (W2 m ρ c)).1.trans (W2_keep m ρ c main_arg7 (by decide) (by decide))),
   (W4_of_ne m ρ c main_arg8 (by decide)).trans ((hostOps2_adj (W2 m ρ c)).2.1.trans (W2_keep m ρ c main_arg8 (by decide) (by decide))),
   (W4_of_ne m ρ c main_arg9 (by decide)).trans ((hostOps2_adj (W2 m ρ c)).2.2.trans (W2_keep m ρ c main_arg9 (by decide) (by decide)))⟩

section Mix

variable (P1 P2 : FVec Ideal ShI .f32)
  (hP1 : W2 m ρ c (Proc.devRef .tc main_v0) = P1) (hP2 : W2 m ρ c (Proc.devRef .tc main_v1) = P2)
include hP1 hP2

/-- The mixing region's result, viewed [150000, 64], is the kernel's mix of the three sparse products. -/
theorem mix_eq : shapeCast ShN (W4 m ρ c (Proc.devRef .tc main_v67)) hscLN = (kerModal (m ((c : Thread nD τ).loc main_arg0)) (m ((c : Thread nD τ).loc main_arg1)) P1 P2 (m ((c : Thread nD τ).loc main_arg6))
      (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W4 m ρ c (Proc.devRef .tc main_v67) = _ from W4_arr m ρ c 3, Add.region2_final (V3 m ρ) c]
  show shapeCast ShN (Add.sum3 (StableHlo.after hostOps2 (W2 m ρ c) (Proc.devRef .tc main_v64))
      (StableHlo.after hostOps2 (W2 m ρ c) (Proc.devRef .tc main_v65))
      (StableHlo.after hostOps2 (W2 m ρ c) (Proc.devRef .tc main_v66))) hscLN = _
  rw [hostOps2_v64, hostOps2_v65, hostOps2_v66, hP1, hP2,
    W2_keep m ρ c main_arg0 (by decide) (by decide),
    W2_keep m ρ c main_arg1 (by decide) (by decide),
    W2_keep m ρ c main_arg6 (by decide) (by decide),
    W2_keep m ρ c main_arg7 (by decide) (by decide),
    W2_keep m ρ c main_arg8 (by decide) (by decide),
    W2_keep m ρ c main_arg9 (by decide) (by decide),
    W2_keep m ρ c main_arg10 (by decide) (by decide),
    W2_keep m ρ c main_arg11 (by decide) (by decide),
    W2_keep m ρ c main_arg12 (by decide) (by decide),
    W2_keep m ρ c main_arg13 (by decide) (by decide),
    W2_keep m ρ c main_arg14 (by decide) (by decide),
    W2_keep m ρ c main_arg15 (by decide) (by decide)]
  exact reshape_add3 _ _ _

/-- The residual region's result, viewed [150000, 64], is the kernel's final array. -/
theorem fin_eq : shapeCast ShN (W6 m ρ c (Proc.devRef .tc main_v84)) hscLN = (kerFinal (kerModal (m ((c : Thread nD τ).loc main_arg0)) (m ((c : Thread nD τ).loc main_arg1)) P1 P2 (m ((c : Thread nD τ).loc main_arg6))
      (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg7)) (m ((c : Thread nD τ).loc main_arg8)) (m ((c : Thread nD τ).loc main_arg9))) := by
  rw [show W6 m ρ c (Proc.devRef .tc main_v84) = _ from W6_arr m ρ c 2, Add.region3_final (V5 m ρ) c]
  show shapeCast ShN (Add.scaleAdd (StableHlo.after hostOps3 (W4 m ρ c) (Proc.devRef .tc main_v82))
      (StableHlo.after hostOps3 (W4 m ρ c) (Proc.devRef .tc main_v83))) hscLN = _
  rw [hostOps3_v82, hostOps3_v83, (W4_adj m ρ c).1, (W4_adj m ρ c).2.1, (W4_adj m ρ c).2.2, mix_eq m ρ c P1 P2 hP1 hP2]
  exact reshape_fma _ _ _

/-- The first result: the users' rows of the final array. -/
theorem out_users : W7 m ρ c (Proc.devRef .tc main_v86) = extractStridedSlice ShU ![0, 0] (kerFinal (kerModal (m ((c : Thread nD τ).loc main_arg0)) (m ((c : Thread nD τ).loc main_arg1)) P1 P2 (m ((c : Thread nD τ).loc main_arg6))
      (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg7)) (m ((c : Thread nD τ).loc main_arg8)) (m ((c : Thread nD τ).loc main_arg9))) hslU := by
  show StableHlo.after hostOps4 (W6 m ρ c) (Proc.devRef .tc main_v86) = _
  rw [hostOps4_v86, fin_eq m ρ c P1 P2 hP1 hP2]

/-- The second result: the items' rows of the final array. -/
theorem out_items : W7 m ρ c (Proc.devRef .tc main_v87) = extractStridedSlice ShI ![100000, 0] (kerFinal (kerModal (m ((c : Thread nD τ).loc main_arg0)) (m ((c : Thread nD τ).loc main_arg1)) P1 P2 (m ((c : Thread nD τ).loc main_arg6))
      (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg7)) (m ((c : Thread nD τ).loc main_arg8)) (m ((c : Thread nD τ).loc main_arg9))) hslI := by
  show StableHlo.after hostOps4 (W6 m ρ c) (Proc.devRef .tc main_v87) = _
  rw [hostOps4_v87, fin_eq m ρ c P1 P2 hP1 hP2]

end Mix

end Cert.Modal.Ker

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.ProjPayload.lean ====
/-
  The body of a projection region, read entry by entry.

  One grid point of a projection region holds a block of 2000 rows of a modality's embedding, `x : [2000, K]`, and the whole
  projection matrix `w : [K, 64]`. Its body multiplies them, passes every entry of the product through the leaky ramp,
  sums the squares of each row of the result over its 64 lanes, takes the square root, floors it at a tiny constant,
  and divides every entry of the row by that number. Entry `(p, q)` of what it stores is therefore

      leaky (∑ k, x p k · w k q)  /  max (sqrt (∑ d, leaky (∑ k, x p k · w k d) ²)) floor,

  a function of ROW `p` of the block alone: the same expression as the specification's `projNormAt`, with the block in
  place of the whole array. `rowNorm` states that expression for an array of any number of rows, `rowNorm_congr` says that
  it only reads the one row, and `pay_apply` reads the body's chain of vector operations (`ramp` then `pay`, the chain
  over an arbitrary inner extent `K`) at an entry as `rowNorm`. The steps, in order: the product from the zero accumulator
  is the sum over the contracted coordinate (narrowing the operands to bf16 is the identity on extended reals);
  comparing with zero and selecting is the ramp; the lane reduction from the zero word is the sum over the 64 lanes; the
  cast of the row sums to a column and the broadcast of the column back over the lanes read the row's own sum.
-/
import proofs.«173485_j29618094473950_2_alg».proof.Proof.Spec
import proofs.«173485_j29618094473950_2_alg».proof.Proof.LibMatmulRead
import proofs.«173485_j29618094473950_2_alg».proof.Proof.LibColumnLayout

noncomputable section

namespace Cert.Modal.Proj

open Idealize.ShloMosaic Idealize.ShloMosaic.ValueIdx

/-! ## The row expression, for any number of rows -/

/-- A projected feature of an `[R, K]` array: row `p` times column `q` of the matrix, through the ramp. -/
def rowFeat (R K : Nat) (x : FVec Ideal ⟨2, ![R, K]⟩ .f32) (w : FVec Ideal ⟨2, ![K, 64]⟩ .f32) (p : Fin R) (q : Fin 64) : EReal :=
  leaky (∑ k : Fin K, x (ix2 p k) * w (ix2 k q))

/-- The feature row scaled to unit length: divided by the larger of its Euclidean norm and the floor. -/
def rowNorm (R K : Nat) (x : FVec Ideal ⟨2, ![R, K]⟩ .f32) (w : FVec Ideal ⟨2, ![K, 64]⟩ .f32) (p : Fin R) (q : Fin 64) : EReal :=
  Ideal.div (rowFeat R K x w p q)
    (max (Ideal.sqrt (∑ d : Fin 64, rowFeat R K x w p d * rowFeat R K x w p d)) (Ideal.ofBits .f32 0x2B8CBCCC#32))

/-- At 50000 rows it is the specification's entry. -/
theorem projNormAt_eq_rowNorm (K : Nat) (x : FVec Ideal ⟨2, ![50000, K]⟩ .f32) (w : FVec Ideal ⟨2, ![K, 64]⟩ .f32)
    (p : Fin 50000) (q : Fin 64) : projNormAt K x w p q = rowNorm 50000 K x w p q := rfl

/-- The expression reads one row: two arrays that agree on row `p` of the one and row `r` of the other give the same
    value. -/
theorem rowNorm_congr {R R' K : Nat} (x : FVec Ideal ⟨2, ![R, K]⟩ .f32) (X : FVec Ideal ⟨2, ![R', K]⟩ .f32)
    (w : FVec Ideal ⟨2, ![K, 64]⟩ .f32) (p : Fin R) (r : Fin R') (h : ∀ k : Fin K, x (ix2 p k) = X (ix2 r k)) (q : Fin 64) :
    rowNorm R K x w p q = rowNorm R' K X w r q := by
  have hf : ∀ d : Fin 64, rowFeat R K x w p d = rowFeat R' K X w r d := fun d => by
    unfold rowFeat
    exact congrArg leaky (Finset.sum_congr rfl fun k _ => by rw [h k])
  unfold rowNorm
  rw [hf q]
  exact congrArg (fun s => Ideal.div (rowFeat R' K X w r q) (max (Ideal.sqrt s) (Ideal.ofBits .f32 0x2B8CBCCC#32)))
    (Finset.sum_congr rfl fun d _ => by rw [hf d])

/-! ## The body's chain of operations -/

/-- The first half of the body over a block `v0` and the matrix `v2`, operation by operation, for any inner extent `K`:
    the product of the two (narrowed to bf16) from the zero accumulator, compared with zero, and the selection between
    the product and its scaled copy. -/
def ramp (K : Nat) (D : DotDims ⟨2, ![2000, K]⟩ ⟨2, ![K, 64]⟩ ⟨2, ![2000, 64]⟩) (hlt : FTy.bits .bf16 < FTy.bits .f32)
    (v0 : FVec Ideal ⟨2, ![2000, K]⟩ .f32) (v2 : FVec Ideal ⟨2, ![K, 64]⟩ .f32) : FVec Ideal ⟨2, ![2000, 64]⟩ .f32 :=
  have v1 : FVec Ideal ⟨2, ![2000, K]⟩ .bf16 := truncf .bf16 v0 hlt
  have v3 : FVec Ideal ⟨2, ![K, 64]⟩ .bf16 := truncf .bf16 v2 hlt
  have cst : FVec Ideal ⟨2, ![2000, 64]⟩ .f32 := constant (F := Ideal) ⟨2, ![2000, 64]⟩ .f32 0x00000000#32
  have v4 : FVec Ideal ⟨2, ![2000, 64]⟩ .f32 := matmul D none v1 v3 cst
  have cst_3 : Ideal .f32 := Scalar.ofBits .f32 0x00000000#32
  have v5 : FVec Ideal ⟨2, ![2000, 64]⟩ .f32 := broadcast ⟨2, ![2000, 64]⟩ cst_3
  have v6 : IVec ⟨2, ![2000, 64]⟩ 1 := cmpf .oge v4 v5
  have cst_4 : Ideal .f32 := Scalar.ofBits .f32 0x3E4CCCCD#32
  have v7 : FVec Ideal ⟨2, ![2000, 64]⟩ .f32 := broadcast ⟨2, ![2000, 64]⟩ cst_4
  have v8 : FVec Ideal ⟨2, ![2000, 64]⟩ .f32 := mulf v7 v4
  select v6 v4 v8

/-- The whole body: the ramp's result divided, row by row, by the larger of the row's Euclidean norm and the floor; the
    record of dimension numbers and the four shape facts are parameters. -/
def pay (K : Nat) (D : DotDims ⟨2, ![2000, K]⟩ ⟨2, ![K, 64]⟩ ⟨2, ![2000, 64]⟩) (hlt : FTy.bits .bf16 < FTy.bits .f32)
    (hred : (⟨2, ![2000, 64]⟩ : Shape).Reduces [1] ⟨1, ![2000]⟩)
    (hsc : (⟨1, ![2000]⟩ : Shape).ShapeCasts ⟨2, ![2000, 1]⟩)
    (hbc : (⟨2, ![2000, 1]⟩ : Shape).Broadcasts ⟨2, ![2000, 64]⟩)
    (v0 : FVec Ideal ⟨2, ![2000, K]⟩ .f32) (v2 : FVec Ideal ⟨2, ![K, 64]⟩ .f32) : FVec Ideal ⟨2, ![2000, 64]⟩ .f32 :=
  have v9 : FVec Ideal ⟨2, ![2000, 64]⟩ .f32 := ramp K D hlt v0 v2
  have v10 : FVec Ideal ⟨2, ![2000, 64]⟩ .f32 := mulf v9 v9
  have v11 : FVec Ideal ⟨1, ![2000]⟩ .f32 := multiReduction .add [1] ⟨1, ![2000]⟩ v10 0x00000000#32 hred (.inl rfl) rfl
  have v12 : FVec Ideal ⟨2, ![2000, 1]⟩ .f32 := shapeCast ⟨2, ![2000, 1]⟩ v11 hsc
  have v13 : FVec Ideal ⟨2, ![2000, 1]⟩ .f32 := sqrt v12
  have cst_6 : Ideal .f32 := Scalar.ofBits .f32 0x2B8CBCCC#32
  have v14 : FVec Ideal ⟨2, ![2000, 1]⟩ .f32 := broadcast ⟨2, ![2000, 1]⟩ cst_6
  have v15 : FVec Ideal ⟨2, ![2000, 1]⟩ .f32 := maximumf v13 v14
  have v16 : FVec Ideal ⟨2, ![2000, 64]⟩ .f32 := broadcastTo ⟨2, ![2000, 64]⟩ v15 hbc
  divf v9 v16

/-- Comparing with the zero word and selecting between the value and its scaled copy is the leaky ramp. -/
theorem select_eq_leaky (y : EReal) :
    Scalar.select (FloatOps.cmpf (F := Ideal) (φ := .f32) .oge y (Scalar.ofBits .f32 0x00000000#32)) y
      (FloatOps.mulf (F := Ideal) (φ := .f32) (Scalar.ofBits .f32 0x3E4CCCCD#32) y) = leaky y := by
  show Scalar.select (Ideal.cmp .oge y (Ideal.ofBits .f32 0x00000000#32)) y (Ideal.ofBits .f32 0x3E4CCCCD#32 * y) = leaky y
  rw [Ideal.ofBits_zero_f32]
  unfold Scalar.select Ideal.cmp leaky
  by_cases h : (0 : EReal) ≤ y
  · rw [if_pos h, if_pos (by simp [h])]
  · rw [if_neg h, if_neg (by simp [h])]

/-- The ramp's result at an entry: the specification's feature of the block's row. -/
theorem ramp_apply (K : Nat) (D : DotDims ⟨2, ![2000, K]⟩ ⟨2, ![K, 64]⟩ ⟨2, ![2000, 64]⟩)
    (hlc : D.lhsContracting = [1]) (hrc : D.rhsContracting = [0]) (hln : D.lhsNonContracting = [0])
    (hrn : D.rhsNonContracting = [1]) (hlb : D.lhsBatch = []) (hrb : D.rhsBatch = [])
    (hlt : FTy.bits .bf16 < FTy.bits .f32)
    (v0 : FVec Ideal ⟨2, ![2000, K]⟩ .f32) (v2 : FVec Ideal ⟨2, ![K, 64]⟩ .f32) (p : Fin 2000) (d : Fin 64) :
    ramp K D hlt v0 v2 (ix2 p d) = rowFeat 2000 K v0 v2 p d := by
  have hmm : matmul D none (truncf .bf16 v0 hlt) (truncf .bf16 v2 hlt)
      (constant (F := Ideal) ⟨2, ![2000, 64]⟩ .f32 0x00000000#32) (ix2 p d) = ∑ k : Fin K, v0 (ix2 p k) * v2 (ix2 k d) :=
    matmul_ix2_apply D hlc hrc hln hrn hlb hrb none (truncf .bf16 v0 hlt) (truncf .bf16 v2 hlt) p d
  unfold rowFeat
  rw [← hmm]
  exact select_eq_leaky _

/-- The lane reduction from the zero word, at row `p`: the sum over the 64 lanes of the row. -/
theorem laneSum_apply (hred : (⟨2, ![2000, 64]⟩ : Shape).Reduces [1] ⟨1, ![2000]⟩) (hφ : FKind.Formats .f32)
    (hacc : (0x00000000#32 : BitVec 32) = FKind.add.neutral .f32 hφ)
    (src : FVec Ideal ⟨2, ![2000, 64]⟩ .f32) (p : Fin 2000) :
    multiReduction .add [1] ⟨1, ![2000]⟩ src 0x00000000#32 hred hφ hacc (ix1 p) = ∑ d : Fin 64, src (ix2 p d) :=
  (Ideal.multiReduction_add_single src 0x00000000#32 hred hφ hacc (ix1 p)).trans
    (Finset.sum_congr rfl fun d _ => congrArg src (funext fun a => Fin.ext (by
      match a with
      | ⟨0, _⟩ => rfl
      | ⟨1, _⟩ => rfl)))

/-- THE BODY AT AN ENTRY: entry `(p, q)` of what the body stores is the row expression of the block at row `p`, lane `q`. -/
theorem pay_apply (K : Nat) (D : DotDims ⟨2, ![2000, K]⟩ ⟨2, ![K, 64]⟩ ⟨2, ![2000, 64]⟩)
    (hlc : D.lhsContracting = [1]) (hrc : D.rhsContracting = [0]) (hln : D.lhsNonContracting = [0])
    (hrn : D.rhsNonContracting = [1]) (hlb : D.lhsBatch = []) (hrb : D.rhsBatch = [])
    (hlt : FTy.bits .bf16 < FTy.bits .f32)
    (hred : (⟨2, ![2000, 64]⟩ : Shape).Reduces [1] ⟨1, ![2000]⟩)
    (hsc : (⟨1, ![2000]⟩ : Shape).ShapeCasts ⟨2, ![2000, 1]⟩)
    (hbc : (⟨2, ![2000, 1]⟩ : Shape).Broadcasts ⟨2, ![2000, 64]⟩)
    (v0 : FVec Ideal ⟨2, ![2000, K]⟩ .f32) (v2 : FVec Ideal ⟨2, ![K, 64]⟩ .f32) (p : Fin 2000) (q : Fin 64) :
    pay K D hlt hred hsc hbc v0 v2 (ix2 p q) = rowNorm 2000 K v0 v2 p q := by
  have hr : ∀ d : Fin 64, ramp K D hlt v0 v2 (ix2 p d) = rowFeat 2000 K v0 v2 p d :=
    ramp_apply K D hlc hrc hln hrn hlb hrb hlt v0 v2 p
  -- the row's sum of squares
  have hsum : multiReduction .add [1] ⟨1, ![2000]⟩ (mulf (ramp K D hlt v0 v2) (ramp K D hlt v0 v2)) 0x00000000#32 hred
      (.inl rfl) rfl (ix1 p) = ∑ d : Fin 64, rowFeat 2000 K v0 v2 p d * rowFeat 2000 K v0 v2 p d :=
    (laneSum_apply hred (.inl rfl) rfl _ p).trans (Finset.sum_congr rfl fun d _ => by
      show ramp K D hlt v0 v2 (ix2 p d) * ramp K D hlt v0 v2 (ix2 p d) = _
      rw [hr d])
  -- the divisor at any lane of row p
  have hden : broadcastTo ⟨2, ![2000, 64]⟩
      (maximumf (sqrt (shapeCast ⟨2, ![2000, 1]⟩
          (multiReduction .add [1] ⟨1, ![2000]⟩ (mulf (ramp K D hlt v0 v2) (ramp K D hlt v0 v2)) 0x00000000#32 hred (.inl rfl) rfl) hsc))
        (broadcast ⟨2, ![2000, 1]⟩ (Scalar.ofBits (F := Ideal) .f32 0x2B8CBCCC#32))) hbc (ix2 p q)
      = max (Ideal.sqrt (∑ d : Fin 64, rowFeat 2000 K v0 v2 p d * rowFeat 2000 K v0 v2 p d)) (Ideal.ofBits .f32 0x2B8CBCCC#32) :=
    (broadcastTo_a1_ab_apply _ hbc p q).trans (by
      show max (Ideal.sqrt (shapeCast ⟨2, ![2000, 1]⟩ _ hsc (ix2 p (0 : Fin 1)))) (Ideal.ofBits .f32 0x2B8CBCCC#32) = _
      rw [shapeCast_a_a1_apply _ hsc p 0, hsum])
  unfold rowNorm
  rw [← hr q, ← hden]
  rfl

end Cert.Modal.Proj

end
-- ==== Proof.ProjRegion0.lean ====
/-
  Projection region 0: from the blocks the grid points write back to the whole array.

  The region walks the 50000 rows of a modality's embedding in 25 blocks of 2000 rows. At point `t` its first window
  holds rows `2000·t … 2000·t + 1999` of the embedding (all 1024 columns), its second window the whole 1024 × 64 projection
  matrix, and its third window receives rows `2000·t … 2000·t + 1999` of the result (all 64 columns). The body stores,
  at entry `(p, q)` of the result block, the unit-length projected feature of ROW `p` of the embedding block
  (`pay_apply`); that row is row `2000·t + p` of the embedding, and entry `(p, q)` of the result block is entry
  `(2000·t + p, q)` of the result array. So what point `t` writes back is block `t` of the one whole-array function
  `projNorm 1024` of the embedding and the matrix (`flushed0_eq`). Row `r` of the result lies in the block of point
  `r / 2000`, so the 25 blocks cover the array (`cover0`), and the array ends holding `projNorm 1024`
  (`region0_final`). Everything is stated at arbitrary contents `V` of the buffers when the region is entered.
-/
import proofs.«173485_j29618094473950_2_alg».proof.Proof.Gen.KernelIdeal.Frame
import proofs.«173485_j29618094473950_2_alg».proof.Proof.ProjPayload
import Idealize.ShloMosaic.Lib.Pipeline.Value

noncomputable section

namespace Cert.Modal.Proj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem hz0 : (![0, 0] : Fin 2 → Nat) = fun _ => 0 := funext fun a => by fin_cases a <;> rfl

/-- The body's arithmetic is the chain of operations `pay` at inner extent 1024. -/
theorem pay0_eq (x0 : FVec Ideal ⟨2, ![2000, 1024]⟩ .f32) (x1 : FVec Ideal ⟨2, ![1024, 64]⟩ .f32) :
    Gen.k0_pay1 (F := Ideal) x0 x1
      = pay 1024 dot_S2000x1024_S1024x64_S2000x64_1_0_0_1_n_n Gen.bitsLt_bf16_f32 Gen.reduces_S2000x64_S2000
          Gen.shapeCasts_S2000_S2000x1 Gen.broadcasts_S2000x1_S2000x64 x0 x1 := rfl

/-- The body at an entry, against the whole arrays: if row `p` of the block `x0` is row `r` of the embedding `X` and the
    second operand is the matrix `W`, entry `(p, q)` of what the body stores is entry `(r, q)` of `projNorm 1024 X W`. -/
theorem body0_point (X : FVec Ideal ⟨2, ![50000, 1024]⟩ .f32) (W : FVec Ideal ⟨2, ![1024, 64]⟩ .f32)
    (x0 : FVec Ideal ⟨2, ![2000, 1024]⟩ .f32) (x1 : FVec Ideal ⟨2, ![1024, 64]⟩ .f32) (p : Fin 2000) (q : Fin 64) (r : Fin 50000)
    (h0 : ∀ k : Fin 1024, x0 (ix2 p k) = X (ix2 r k)) (h1 : x1 = W) :
    Gen.k0_pay1 (F := Ideal) x0 x1 (ix2 p q) = projNorm 1024 X W (ix2 r q) := by
  subst h1
  rw [pay0_eq, pay_apply 1024 _ rfl rfl rfl rfl rfl rfl, projNorm_apply, projNormAt_eq_rowNorm]
  exact rowNorm_congr x0 X x1 p r h0 q

/-- The three windows' block indices at point `t`, decided over the 25 points: the embedding's and the result's blocks
    are block `t` of the rows and the only block of the columns; the matrix is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `projNorm 1024` of the embedding and the matrix as the region finds them.
    An element of a block sits, on each axis, at block index × block size + its coordinate inside the block. -/
theorem flushed0_eq (c : Dev nD) (t : Fin cfg0.N) :
    (dat0 (F := Ideal) V c).flushed 2 t
      = ((cfg0.win 2).blk t).view.read (Elt Ideal) (projNorm 1024 (V c main_arg2) (V c main_arg4)) := by
  show (cfg0.win 2).cut (grid0.coords t) ((dat0 V c).after 2 t) = _
  rw [after0_2]
  unfold out0_2
  rw [View.canon_unit_zero hz0]
  simp only [View.ld_unit_zero (S := S2000x1024) hz0, View.ld_unit_zero (S := S1024x64) hz0]
  funext j
  have hj0 : (j 0).val < 2000 := (j 0).isLt
  have hj1 : (j 1).val < 64 := (j 1).isLt
  have ht : t.val < 25 := t.isLt
  obtain ⟨e0, e1, e2, e3, e4, e5⟩ := idx_facts0 t
  -- the entry of the result block, and the entry of the result array it is written to
  have hL : (win0 2).xinj (grid0.coords t) j = ix2 (⟨(j 0).val, hj0⟩ : Fin 2000) (⟨(j 1).val, hj1⟩ : Fin 64) :=
    funext fun a => by
      match a with
      | ⟨0, _⟩ => rfl
      | ⟨1, _⟩ => rfl
  have hR : ((View.whole main_v0).slice ((win0 2).rect t)).emb j
      = ix2 (⟨t.val * 2000 + (j 0).val, by omega⟩ : Fin 50000) (⟨(j 1).val, hj1⟩ : Fin 64) :=
    funext fun a => Fin.ext (by
      match a with
      | ⟨0, _⟩ => show win0_2.index t (0 : Fin 2) * 2000 + 1 * (j 0).val = t.val * 2000 + (j 0).val; omega
      | ⟨1, _⟩ => show win0_2.index t (1 : Fin 2) * 64 + 1 * (j 1).val = (j 1).val; omega)
  show k0_pay1 (iblk0 V c 0 t) (iblk0 V c 1 t) ((win0 2).xinj (grid0.coords t) j)
    = projNorm 1024 (V c main_arg2) (V c main_arg4) (((View.whole main_v0).slice ((win0 2).rect t)).emb j)
  rw [hL, hR]
  refine body0_point (V c main_arg2) (V c main_arg4) (iblk0 V c 0 t) (iblk0 V c 1 t) _ _ _ (fun k => ?_) ?_
  · -- row p of the embedding's block at point t is row 2000·t + p of the embedding
    show V c main_arg2 (((cfg0.win 0).blk t).view.emb (ix2 (⟨(j 0).val, hj0⟩ : Fin 2000) k))
      = V c main_arg2 (ix2 (⟨t.val * 2000 + (j 0).val, by omega⟩ : Fin 50000) k)
    refine congrArg (V c main_arg2) (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 1024 + 1 * k.val = k.val; omega
  · -- the matrix's one block is the matrix
    funext y
    show V c main_arg4 (((cfg0.win 1).blk t).view.emb y) = V c main_arg4 y
    refine congrArg (V c main_arg4) (funext fun a => Fin.ext ?_)
    match a with
    | ⟨0, _⟩ => show win0_1.index t (0 : Fin 2) * 1024 + 1 * (y 0).val = (y 0).val; omega
    | ⟨1, _⟩ => show win0_1.index t (1 : Fin 2) * 64 + 1 * (y 1).val = (y 1).val; omega

/-- An index of the result array is in point `t`'s block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- THE BLOCKS COVER THE ARRAY: row `r` is in the block of point `r / 2000`, and every point writes its block back. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, by show (i 0).val / 2000 < 25; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

/-- THE RESULT ARRAY after the region: the projection of the embedding through the ramp, its rows scaled to unit length. -/
theorem region0_final (c : Dev nD) :
    (dat0 (F := Ideal) V c).arrAt 2 cfg0.N = projNorm 1024 (V c main_arg2) (V c main_arg4) :=
  (dat0 (F := Ideal) V c).arrAt_eq_of_cover 2 (projNorm 1024 (V c main_arg2) (V c main_arg4))
    (fun t _ => flushed0_eq V c t) cover0

end Cert.Modal.Proj

end
-- ==== Proof.ProjRegion1.lean ====
/-
  Projection region 1: from the blocks the grid points write back to the whole array.

  The region walks the 50000 rows of a modality's embedding in 25 blocks of 2000 rows. At point `t` its first window
  holds rows `2000·t … 2000·t + 1999` of the embedding (all 768 columns), its second window the whole 768 × 64 projection
  matrix, and its third window receives rows `2000·t … 2000·t + 1999` of the result (all 64 columns). The body stores,
  at entry `(p, q)` of the result block, the unit-length projected feature of ROW `p` of the embedding block
  (`pay_apply`); that row is row `2000·t + p` of the embedding, and entry `(p, q)` of the result block is entry
  `(2000·t + p, q)` of the result array. So what point `t` writes back is block `t` of the one whole-array function
  `projNorm 768` of the embedding and the matrix (`flushed1_eq`). Row `r` of the result lies in the block of point
  `r / 2000`, so the 25 blocks cover the array (`cover1`), and the array ends holding `projNorm 768`
  (`region1_final`). Everything is stated at arbitrary contents `V` of the buffers when the region is entered.
-/
import proofs.«173485_j29618094473950_2_alg».proof.Proof.Gen.KernelIdeal.Frame
import proofs.«173485_j29618094473950_2_alg».proof.Proof.ProjPayload
import Idealize.ShloMosaic.Lib.Pipeline.Value

noncomputable section

namespace Cert.Modal.Proj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at the origin of their buffers. -/
theorem hz1 : (![0, 0] : Fin 2 → Nat) = fun _ => 0 := funext fun a => by fin_cases a <;> rfl

/-- The body's arithmetic is the chain of operations `pay` at inner extent 768. -/
theorem pay1_eq (x0 : FVec Ideal ⟨2, ![2000, 768]⟩ .f32) (x1 : FVec Ideal ⟨2, ![768, 64]⟩ .f32) :
    Gen.k1_pay1 (F := Ideal) x0 x1
      = pay 768 dot_S2000x768_S768x64_S2000x64_1_0_0_1_n_n Gen.bitsLt_bf16_f32 Gen.reduces_S2000x64_S2000
          Gen.shapeCasts_S2000_S2000x1 Gen.broadcasts_S2000x1_S2000x64 x0 x1 := rfl

/-- The body at an entry, against the whole arrays: if row `p` of the block `x0` is row `r` of the embedding `X` and the
    second operand is the matrix `W`, entry `(p, q)` of what the body stores is entry `(r, q)` of `projNorm 768 X W`. -/
theorem body1_point (X : FVec Ideal ⟨2, ![50000, 768]⟩ .f32) (W : FVec Ideal ⟨2, ![768, 64]⟩ .f32)
    (x0 : FVec Ideal ⟨2, ![2000, 768]⟩ .f32) (x1 : FVec Ideal ⟨2, ![768, 64]⟩ .f32) (p : Fin 2000) (q : Fin 64) (r : Fin 50000)
    (h0 : ∀ k : Fin 768, x0 (ix2 p k) = X (ix2 r k)) (h1 : x1 = W) :
    Gen.k1_pay1 (F := Ideal) x0 x1 (ix2 p q) = projNorm 768 X W (ix2 r q) := by
  subst h1
  rw [pay1_eq, pay_apply 768 _ rfl rfl rfl rfl rfl rfl, projNorm_apply, projNormAt_eq_rowNorm]
  exact rowNorm_congr x0 X x1 p r h0 q

/-- The three windows' block indices at point `t`, decided over the 25 points: the embedding's and the result's blocks
    are block `t` of the rows and the only block of the columns; the matrix is one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of `projNorm 768` of the embedding and the matrix as the region finds them.
    An element of a block sits, on each axis, at block index × block size + its coordinate inside the block. -/
theorem flushed1_eq (c : Dev nD) (t : Fin cfg1.N) :
    (dat1 (F := Ideal) V c).flushed 2 t
      = ((cfg1.win 2).blk t).view.read (Elt Ideal) (projNorm 768 (V c main_arg3) (V c main_arg5)) := by
  show (cfg1.win 2).cut (grid1.coords t) ((dat1 V c).after 2 t) = _
  rw [after1_2]
  unfold out1_2
  rw [View.canon_unit_zero hz1]
  simp only [View.ld_unit_zero (S := S2000x768) hz1, View.ld_unit_zero (S := S768x64) hz1]
  funext j
  have hj0 : (j 0).val < 2000 := (j 0).isLt
  have hj1 : (j 1).val < 64 := (j 1).isLt
  have ht : t.val < 25 := t.isLt
  obtain ⟨e0, e1, e2, e3, e4, e5⟩ := idx_facts1 t
  -- the entry of the result block, and the entry of the result array it is written to
  have hL : (win1 2).xinj (grid1.coords t) j = ix2 (⟨(j 0).val, hj0⟩ : Fin 2000) (⟨(j 1).val, hj1⟩ : Fin 64) :=
    funext fun a => by
      match a with
      | ⟨0, _⟩ => rfl
      | ⟨1, _⟩ => rfl
  have hR : ((View.whole main_v1).slice ((win1 2).rect t)).emb j
      = ix2 (⟨t.val * 2000 + (j 0).val, by omega⟩ : Fin 50000) (⟨(j 1).val, hj1⟩ : Fin 64) :=
    funext fun a => Fin.ext (by
      match a with
      | ⟨0, _⟩ => show win1_2.index t (0 : Fin 2) * 2000 + 1 * (j 0).val = t.val * 2000 + (j 0).val; omega
      | ⟨1, _⟩ => show win1_2.index t (1 : Fin 2) * 64 + 1 * (j 1).val = (j 1).val; omega)
  show k1_pay1 (iblk1 V c 0 t) (iblk1 V c 1 t) ((win1 2).xinj (grid1.coords t) j)
    = projNorm 768 (V c main_arg3) (V c main_arg5) (((View.whole main_v1).slice ((win1 2).rect t)).emb j)
  rw [hL, hR]
  refine body1_point (V c main_arg3) (V c main_arg5) (iblk1 V c 0 t) (iblk1 V c 1 t) _ _ _ (fun k => ?_) ?_
  · -- row p of the embedding's block at point t is row 2000·t + p of the embedding
    show V c main_arg3 (((cfg1.win 0).blk t).view.emb (ix2 (⟨(j 0).val, hj0⟩ : Fin 2000) k))
      = V c main_arg3 (ix2 (⟨t.val * 2000 + (j 0).val, by omega⟩ : Fin 50000) k)
    refine congrArg (V c main_arg3) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 768 + 1 * k.val = k.val; omega
  · -- the matrix's one block is the matrix
    funext y
    show V c main_arg5 (((cfg1.win 1).blk t).view.emb y) = V c main_arg5 y
    refine congrArg (V c main_arg5) (funext fun a => Fin.ext ?_)
    match a with
    | ⟨0, _⟩ => show win1_1.index t (0 : Fin 2) * 768 + 1 * (y 0).val = (y 0).val; omega
    | ⟨1, _⟩ => show win1_1.index t (1 : Fin 2) * 64 + 1 * (y 1).val = (y 1).val; omega

/-- An index of the result array is in point `t`'s block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v1).slice (win1_2.rect t)).set ↔ _
  rw [View.set_slice_whole, Rect.mem_set_unit]
  exact Iff.rfl

/-- THE BLOCKS COVER THE ARRAY: row `r` is in the block of point `r / 2000`, and every point writes its block back. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, by show (i 0).val / 2000 < 25; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- THE RESULT ARRAY after the region: the projection of the embedding through the ramp, its rows scaled to unit length. -/
theorem region1_final (c : Dev nD) :
    (dat1 (F := Ideal) V c).arrAt 2 cfg1.N = projNorm 768 (V c main_arg3) (V c main_arg5) :=
  (dat1 (F := Ideal) V c).arrAt_eq_of_cover 2 (projNorm 768 (V c main_arg3) (V c main_arg5))
    (fun t _ => flushed1_eq V c t) cover1

end Cert.Modal.Proj

end
-- ==== Proof.KernelResult.lean ====
/-
  The idealized kernel's run with its two results as functions of the arguments.

  The two projection regions run first, on the launch memory: the first leaves the projected, ramped, unit-length image
  features in its output array and touches nothing else the later stretches read; the second does the same for the text
  features, reading its two arguments through the first region's exit contents, which still hold them as launched. With
  those two arrays named, the remaining boundaries give both results as slices of one [150000, 64] array.
-/
import proofs.«173485_j29618094473950_2_alg».proof.Proof.KernelRun
import proofs.«173485_j29618094473950_2_alg».proof.Proof.KernelValue
import proofs.«173485_j29618094473950_2_alg».proof.Proof.ProjRegion0
import proofs.«173485_j29618094473950_2_alg».proof.Proof.ProjRegion1

set_option maxRecDepth 16384

noncomputable section

namespace Cert.Modal.Ker

open Idealize.ShloMosaic Idealize.ShloMosaic.TcCoe Idealize.ShloMosaic.Tactic Idealize.ShloMosaic.StableHlo Idealize.SL.Sem
open Cert.KernelIdeal Cert.KernelIdeal.Gen Cert.Modal

variable (m : (ℓ : Loc nD τ sig) → Buf (Elt Ideal) ℓ) (ρ : Dev nD → PrngReg)

/-- The first region leaves the projected, normalised image features, and the second region keeps them. -/
theorem proj_img (c : Dev nD) : W2 m ρ c (Proc.devRef .tc main_v0) = projNorm 1024 (m ((c : Thread nD τ).loc main_arg2)) (m ((c : Thread nD τ).loc main_arg4)) :=
  (W2_of_ne m ρ c main_v0 (by decide)).trans ((W1_arr m ρ c 2).trans (Proj.region0_final (V0 m ρ) c))

/-- The second region leaves the projected, normalised text features. -/
theorem proj_txt (c : Dev nD) : W2 m ρ c (Proc.devRef .tc main_v1) = projNorm 768 (m ((c : Thread nD τ).loc main_arg3)) (m ((c : Thread nD τ).loc main_arg5)) := by
  refine (W2_arr m ρ c 2).trans ((Proj.region1_final (V1 m ρ) c).trans ?_)
  show projNorm 768 (W1 m ρ c (Proc.devRef .tc main_arg3)) (W1 m ρ c (Proc.devRef .tc main_arg5)) = _
  rw [W1_of_ne m ρ c main_arg3 (by decide), W1_of_ne m ρ c main_arg5 (by decide)]

/-- Every weakly fair execution of the idealized kernel terminates, nothing faulting, with the users' and the items'
    rows of the kernel's final array in its two results and its sixteen arguments unchanged. -/
theorem run_value : θ_run defs (onTc (τ := τ) (main (F := Ideal))) ⟨m, fun _ => 0, ρ⟩ (fun r => ∀ c : Dev nD,
      r.2.mem ((c.tc : Thread nD τ).loc main_v86) = extractStridedSlice ShU ![0, 0] (kerFinal (kerModal (m ((c.tc : Thread nD τ).loc main_arg0)) (m ((c.tc : Thread nD τ).loc main_arg1)) (projNorm 1024 (m ((c.tc : Thread nD τ).loc main_arg2)) (m ((c.tc : Thread nD τ).loc main_arg4))) (projNorm 768 (m ((c.tc : Thread nD τ).loc main_arg3)) (m ((c.tc : Thread nD τ).loc main_arg5))) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg7)) (m ((c.tc : Thread nD τ).loc main_arg8)) (m ((c.tc : Thread nD τ).loc main_arg9))) hslU
      ∧ r.2.mem ((c.tc : Thread nD τ).loc main_v87) = extractStridedSlice ShI ![100000, 0] (kerFinal (kerModal (m ((c.tc : Thread nD τ).loc main_arg0)) (m ((c.tc : Thread nD τ).loc main_arg1)) (projNorm 1024 (m ((c.tc : Thread nD τ).loc main_arg2)) (m ((c.tc : Thread nD τ).loc main_arg4))) (projNorm 768 (m ((c.tc : Thread nD τ).loc main_arg3)) (m ((c.tc : Thread nD τ).loc main_arg5))) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg7)) (m ((c.tc : Thread nD τ).loc main_arg8)) (m ((c.tc : Thread nD τ).loc main_arg9))) hslI
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v86 (by decide))).trans (out_users m ρ c _ _ (proj_img m ρ c) (proj_txt m ρ c)),
     (h c _ (mem_uc main_v87 (by decide))).trans (out_items m ρ c _ _ (proj_img m ρ c) (proj_txt m ρ c)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (Cert.KernelIdeal.RunAll.run_all m ρ)

end Cert.Modal.Ker

end
-- ==== Proof.RefProj.lean ====
/-
  The reference's two normalised projections, entry by entry.

  The reference multiplies the item features of one modality by a projection matrix, passes every entry through the
  leaky ramp (written as a comparison with zero that selects between the entry and a fixed multiple of it), sums the
  squares along each row, takes the square root, bounds it below by a tiny floor and divides the row by it. Read at
  entry `(p, q)` this is the specification's `projNormAt`: the product's entry is the sum over the contracted axis, the
  comparison-and-select is `leaky`, the row's sum of squares starts from the zero word, and the broadcasts of the
  row's norm back over the columns read it at row `p`. Both modalities go the same way; only the contracted extent differs.
-/
import proofs.«173485_j29618094473950_2_alg».proof.Proof.Spec
import proofs.«173485_j29618094473950_2_alg».proof.Proof.Gen.ReferenceIdeal.Read

noncomputable section

namespace Cert.Modal.Ref

open Idealize.ShloMosaic Idealize.ShloMosaic.ValueIdx Cert.ReferenceIdeal Cert.ReferenceIdeal.Read

/-- Selecting `y` where `y ≥ 0` and the fixed multiple of `y` elsewhere is the leaky ramp. -/
theorem select_leaky (y : EReal) :
    Scalar.select (Ideal.cmp .oge y (Ideal.ofBits .f32 0x00000000#32)) y (Ideal.ofBits .f32 0x3E4CCCCD#32 * y)
      = leaky y := by
  rw [Ideal.ofBits_zero_f32]
  unfold leaky Scalar.select Ideal.cmp
  by_cases h : (0 : EReal) ≤ y
  · simp [h]
  · simp [h]

/-! ## The image modality (contracted extent 1024) -/

/-- The ramped product's entry `(p, q)` is the specification's feature. -/
theorem feat_img (x2 : FVec Ideal S50000x1024 .f32) (x4 : FVec Ideal S1024x64 .f32) (p : Fin 50000) (q : Fin 64) :
    val_main_v5 (F := Ideal) x2 x4 (ix2 p q) = feat 1024 x2 x4 p q := by
  have el : ∀ k : Fin 1024, lidx_main_v0 (ix2 p q) k = ix2 p k := fun k => funext fun a => by
    match a with
    | ⟨0, _⟩ => rfl
    | ⟨1, _⟩ => rfl
  have er : ∀ k : Fin 1024, ridx_main_v0 (ix2 p q) k = ix2 k q := fun k => funext fun a => by
    match a with
    | ⟨0, _⟩ => rfl
    | ⟨1, _⟩ => rfl
  rw [val_main_v5_apply, val_main_v2_apply, val_main_v4_apply, val_main_v1_apply, val_main_v3_apply,
    val_main_cst_apply, val_main_cst_0_apply, val_main_v0_apply]
  simp only [el, er]
  exact select_leaky _

/-- The sum of the squares along row `p` of the ramped product. -/
theorem sumsq_img (x2 : FVec Ideal S50000x1024 .f32) (x4 : FVec Ideal S1024x64 .f32) (p : Fin 50000) :
    val_main_v23 (F := Ideal) x2 x4 (ix1 p) = ∑ d : Fin 64, feat 1024 x2 x4 p d * feat 1024 x2 x4 p d := by
  have ei : ∀ k : Fin 64, idx_main_v23 (ix1 p) k = ix2 p k := fun k => funext fun a => by
    match a with
    | ⟨0, _⟩ => rfl
    | ⟨1, _⟩ => rfl
  rw [val_main_v23_apply, val_main_cst_6_apply, Ideal.ofBits_def, Ideal.ofBits_zero_f32, zero_add]
  refine Finset.sum_congr rfl fun k _ => ?_
  rw [ei k, val_main_v22_apply, feat_img]
  rfl

/-- THE IMAGE PROJECTION: the reference's normalised image features are `projNorm 1024` of the embedding and the matrix. -/
theorem ref_proj_img (x2 : FVec Ideal S50000x1024 .f32) (x4 : FVec Ideal S1024x64 .f32) :
    val_main_v29 (F := Ideal) x2 x4 = projNorm 1024 x2 x4 := by
  funext j
  obtain ⟨p, q, rfl⟩ : ∃ (p : Fin 50000) (q : Fin 64), j = ix2 p q := ⟨j 0, j 1, eq_ix2 j⟩
  have ei : idx_main_v24 (idx_main_v28 (ix2 p q)) = ix1 p := funext fun a => by
    match a with
    | ⟨0, _⟩ => rfl
  rw [projNorm_apply, val_main_v29_apply, val_main_v28_apply, val_main_v27_apply, val_main_v25_apply,
    val_main_v24_apply, val_main_v26_apply, val_main_cst_7_apply, ei, sumsq_img, feat_img]
  rfl

/-! ## The text modality (contracted extent 768) -/

/-- The ramped product's entry `(p, q)` is the specification's feature. -/
theorem feat_txt (x3 : FVec Ideal S50000x768 .f32) (x5 : FVec Ideal S768x64 .f32) (p : Fin 50000) (q : Fin 64) :
    val_main_v11 (F := Ideal) x3 x5 (ix2 p q) = feat 768 x3 x5 p q := by
  have el : ∀ k : Fin 768, lidx_main_v6 (ix2 p q) k = ix2 p k := fun k => funext fun a => by
    match a with
    | ⟨0, _⟩ => rfl
    | ⟨1, _⟩ => rfl
  have er : ∀ k : Fin 768, ridx_main_v6 (ix2 p q) k = ix2 k q := fun k => funext fun a => by
    match a with
    | ⟨0, _⟩ => rfl
    | ⟨1, _⟩ => rfl
  rw [val_main_v11_apply, val_main_v8_apply, val_main_v10_apply, val_main_v7_apply, val_main_v9_apply,
    val_main_cst_1_apply, val_main_cst_2_apply, val_main_v6_apply]
  simp only [el, er]
  exact select_leaky _

/-- The sum of the squares along row `p` of the ramped product. -/
theorem sumsq_txt (x3 : FVec Ideal S50000x768 .f32) (x5 : FVec Ideal S768x64 .f32) (p : Fin 50000) :
    val_main_v59 (F := Ideal) x3 x5 (ix1 p) = ∑ d : Fin 64, feat 768 x3 x5 p d * feat 768 x3 x5 p d := by
  have ei : ∀ k : Fin 64, idx_main_v59 (ix1 p) k = ix2 p k := fun k => funext fun a => by
    match a with
    | ⟨0, _⟩ => rfl
    | ⟨1, _⟩ => rfl
  rw [val_main_v59_apply, val_main_cst_13_apply, Ideal.ofBits_def, Ideal.ofBits_zero_f32, zero_add]
  refine Finset.sum_congr rfl fun k _ => ?_
  rw [ei k, val_main_v58_apply, feat_txt]
  rfl

/-- THE TEXT PROJECTION: the reference's normalised text features are `projNorm 768` of the embedding and the matrix. -/
theorem ref_proj_txt (x3 : FVec Ideal S50000x768 .f32) (x5 : FVec Ideal S768x64 .f32) :
    val_main_v65 (F := Ideal) x3 x5 = projNorm 768 x3 x5 := by
  funext j
  obtain ⟨p, q, rfl⟩ : ∃ (p : Fin 50000) (q : Fin 64), j = ix2 p q := ⟨j 0, j 1, eq_ix2 j⟩
  have ei : idx_main_v60 (idx_main_v64 (ix2 p q)) = ix1 p := funext fun a => by
    match a with
    | ⟨0, _⟩ => rfl
  rw [projNorm_apply, val_main_v65_apply, val_main_v64_apply, val_main_v63_apply, val_main_v61_apply,
    val_main_v60_apply, val_main_v62_apply, val_main_cst_14_apply, ei, sumsq_txt, feat_txt]
  rfl

end Cert.Modal.Ref

end
-- ==== Proof.RefValue.lean ====
/-
  The reference's two results in the specification's vocabulary.

  The reference stacks the users over the items (or over a modality's normalised projection), multiplies the stack by
  a sparse matrix — gather the rows named by the triples' columns, scale each by the triple's value, add each into the
  row named by the triple's row —, mixes the two modal products with the softmax weights, and adds to the mix the
  adjacency's product with it and half of it; its two results are the user rows and the item rows of that array.
  Every stage is, operation for operation, the specification's `cat`, `wrapIdx`, `spmm`, `soft`, `w0`, `w1`,
  `refModal`, `refFinal`: the statements below say so stage by stage, each by unfolding one layer of names. The only
  step with content is the replacement of the two normalised projections by `projNorm` (proved entry by entry
  elsewhere); the reference's dimension records of the gather and the scatter are the row gather's and the row scatter's.
-/
import proofs.«173485_j29618094473950_2_alg».proof.Proof.Spec
import proofs.«173485_j29618094473950_2_alg».proof.Proof.RefProj

noncomputable section

namespace Cert.Modal.Ref

open Cert.ReferenceIdeal Cert.ReferenceIdeal.Gen Cert.ReferenceIdeal.Read Idealize.ShloMosaic Idealize.ShloMosaic.TcCoe
  Idealize.SL.Sem Idealize.ShloMosaic.StableHlo

/-! ## The dimension records -/

/-- The reference's gather is the row gather from `[150000, 64]` by `[2000000, 1]` start indices. -/
theorem gatherDims_eq :
    gather_S150000x64_S2000000x1_S2000000x64_1_0_n_n_0_1_164 = Cert.RowGather.rowDims 150000 2000000 64 hwfG := rfl

/-- The reference's scatter is the row scatter of `[2000000, 64]` updates into `[150000, 64]`. -/
theorem scatterDims_eq :
    scatter_S150000x64_S2000000x1_S2000000x64_1_0_0_1 = Cert.RowScatter.rowDims 150000 2000000 64 hwfS := rfl

/-! ## The wrap of negative column indices (the reference writes it out five times) -/

theorem wrap36 (x : IVec ShE 32) : val_main_v36 (F := Ideal) x = wrapIdx x := rfl
theorem wrap50 (x : IVec ShE 32) : val_main_v50 (F := Ideal) x = wrapIdx x := rfl
theorem wrap72 (x : IVec ShE 32) : val_main_v72 (F := Ideal) x = wrapIdx x := rfl
theorem wrap86 (x : IVec ShE 32) : val_main_v86 (F := Ideal) x = wrapIdx x := rfl
theorem wrap114 (x : IVec ShE 32) : val_main_v114 (F := Ideal) x = wrapIdx x := rfl

/-! ## The stacked tables -/

theorem cat30 (x0 : FVec Ideal ShU .f32) (x2 : FVec Ideal S50000x1024 .f32) (x4 : FVec Ideal S1024x64 .f32) :
    val_main_v30 (F := Ideal) x0 x2 x4 = cat x0 (projNorm 1024 x2 x4) := by
  unfold val_main_v30
  rw [ref_proj_img]
  rfl

theorem cat66 (x0 : FVec Ideal ShU .f32) (x3 : FVec Ideal S50000x768 .f32) (x5 : FVec Ideal S768x64 .f32) :
    val_main_v66 (F := Ideal) x0 x3 x5 = cat x0 (projNorm 768 x3 x5) := by
  unfold val_main_v66
  rw [ref_proj_txt]
  rfl

theorem cat44 (x0 : FVec Ideal ShU .f32) (x1 : FVec Ideal ShI .f32) : val_main_v44 (F := Ideal) x0 x1 = cat x0 x1 := rfl
theorem cat80 (x0 : FVec Ideal ShU .f32) (x1 : FVec Ideal ShI .f32) : val_main_v80 (F := Ideal) x0 x1 = cat x0 x1 := rfl

/-! ## The four sparse products of the mix -/

/-- The image modality's product. -/
theorem spmm43 (x0 : FVec Ideal ShU .f32) (x2 : FVec Ideal S50000x1024 .f32) (x4 : FVec Ideal S1024x64 .f32)
    (x10 x11 : IVec ShE 32) (x12 : FVec Ideal ShE .f32) :
    val_main_v43 (F := Ideal) x0 x2 x4 x10 x11 x12 = spmm x10 x11 x12 (cat x0 (projNorm 1024 x2 x4)) := by
  unfold val_main_v43 val_main_v40 val_main_v38 val_main_v37
  rw [cat30, wrap36, gatherDims_eq, scatterDims_eq]
  rfl

/-- The adjacency's product with the plain embeddings (the copy inside the image modality's sum). -/
theorem spmm57 (x0 : FVec Ideal ShU .f32) (x1 : FVec Ideal ShI .f32) (x7 x8 : IVec ShE 32) (x9 : FVec Ideal ShE .f32) :
    val_main_v57 (F := Ideal) x0 x1 x7 x8 x9 = spmm x7 x8 x9 (cat x0 x1) := by
  unfold val_main_v57 val_main_v54 val_main_v52 val_main_v51
  rw [cat44, wrap50, gatherDims_eq, scatterDims_eq]
  rfl

/-- The text modality's product. -/
theorem spmm79 (x0 : FVec Ideal ShU .f32) (x3 : FVec Ideal S50000x768 .f32) (x5 : FVec Ideal S768x64 .f32)
    (x13 x14 : IVec ShE 32) (x15 : FVec Ideal ShE .f32) :
    val_main_v79 (F := Ideal) x0 x3 x5 x13 x14 x15 = spmm x13 x14 x15 (cat x0 (projNorm 768 x3 x5)) := by
  unfold val_main_v79 val_main_v76 val_main_v74 val_main_v73
  rw [cat66, wrap72, gatherDims_eq, scatterDims_eq]
  rfl

/-- The adjacency's product with the plain embeddings (the copy inside the text modality's sum). -/
theorem spmm93 (x0 : FVec Ideal ShU .f32) (x1 : FVec Ideal ShI .f32) (x7 x8 : IVec ShE 32) (x9 : FVec Ideal ShE .f32) :
    val_main_v93 (F := Ideal) x0 x1 x7 x8 x9 = spmm x7 x8 x9 (cat x0 x1) := by
  unfold val_main_v93 val_main_v90 val_main_v88 val_main_v87
  rw [cat80, wrap86, gatherDims_eq, scatterDims_eq]
  rfl

/-! ## The modal weights -/

theorem soft21 (x6 : FVec Ideal Sh2 .f32) : val_main_v21 (F := Ideal) x6 = soft x6 := rfl

theorem w0_101 (x6 : FVec Ideal Sh2 .f32) : val_main_v101 (F := Ideal) x6 = w0 x6 := by
  unfold val_main_v101 val_main_v100
  rw [soft21]
  rfl

theorem w1_105 (x6 : FVec Ideal Sh2 .f32) : val_main_v105 (F := Ideal) x6 = w1 x6 := by
  unfold val_main_v105 val_main_v104
  rw [soft21]
  rfl

/-! ## The mix and the final array -/

/-- The weighted mix of the two modal sums. -/
theorem modal108 (x0 : FVec Ideal ShU .f32) (x1 : FVec Ideal ShI .f32)
    (x2 : FVec Ideal S50000x1024 .f32) (x3 : FVec Ideal S50000x768 .f32)
    (x4 : FVec Ideal S1024x64 .f32) (x5 : FVec Ideal S768x64 .f32) (x6 : FVec Ideal Sh2 .f32)
    (x7 x8 : IVec ShE 32) (x9 : FVec Ideal ShE .f32) (x10 x11 : IVec ShE 32) (x12 : FVec Ideal ShE .f32)
    (x13 x14 : IVec ShE 32) (x15 : FVec Ideal ShE .f32) :
    val_main_v108 (F := Ideal) x0 x1 x2 x3 x4 x5 x6 x7 x8 x9 x10 x11 x12 x13 x14 x15
      = refModal x0 x1 (projNorm 1024 x2 x4) (projNorm 768 x3 x5) x6 x7 x8 x9 x10 x11 x12 x13 x14 x15 := by
  unfold val_main_v108 val_main_v103 val_main_v107 val_main_v102 val_main_v106 val_main_v96 val_main_v99
    val_main_v95 val_main_v98
  rw [spmm43, spmm57, spmm79, spmm93, w0_101, w1_105]
  rfl

/-- The adjacency's product with an array `M` (the copy that multiplies the mix). -/
theorem spmm121 (x0 : FVec Ideal ShU .f32) (x1 : FVec Ideal ShI .f32)
    (x2 : FVec Ideal S50000x1024 .f32) (x3 : FVec Ideal S50000x768 .f32)
    (x4 : FVec Ideal S1024x64 .f32) (x5 : FVec Ideal S768x64 .f32) (x6 : FVec Ideal Sh2 .f32)
    (x7 x8 : IVec ShE 32) (x9 : FVec Ideal ShE .f32) (x10 x11 : IVec ShE 32) (x12 : FVec Ideal ShE .f32)
    (x13 x14 : IVec ShE 32) (x15 : FVec Ideal ShE .f32) :
    val_main_v121 (F := Ideal) x0 x1 x2 x3 x4 x5 x6 x7 x8 x9 x10 x11 x12 x13 x14 x15
      = spmm x7 x8 x9 (val_main_v108 (F := Ideal) x0 x1 x2 x3 x4 x5 x6 x7 x8 x9 x10 x11 x12 x13 x14 x15) := by
  unfold val_main_v121 val_main_v118 val_main_v116 val_main_v115
  rw [wrap114, gatherDims_eq, scatterDims_eq]
  rfl

/-- The mix, plus the adjacency's product with it, plus half of it. -/
theorem final125 (x0 : FVec Ideal ShU .f32) (x1 : FVec Ideal ShI .f32)
    (x2 : FVec Ideal S50000x1024 .f32) (x3 : FVec Ideal S50000x768 .f32)
    (x4 : FVec Ideal S1024x64 .f32) (x5 : FVec Ideal S768x64 .f32) (x6 : FVec Ideal Sh2 .f32)
    (x7 x8 : IVec ShE 32) (x9 : FVec Ideal ShE .f32) (x10 x11 : IVec ShE 32) (x12 : FVec Ideal ShE .f32)
    (x13 x14 : IVec ShE 32) (x15 : FVec Ideal ShE .f32) :
    val_main_v125 (F := Ideal) x0 x1 x2 x3 x4 x5 x6 x7 x8 x9 x10 x11 x12 x13 x14 x15
      = refFinal (refModal x0 x1 (projNorm 1024 x2 x4) (projNorm 768 x3 x5) x6 x7 x8 x9 x10 x11 x12 x13 x14 x15) x7 x8 x9 := by
  unfold val_main_v125 val_main_v122 val_main_v124
  rw [spmm121, modal108]
  rfl

/-! ## The two results -/

/-- Rows `0 … 99999` of the final array, over any arguments. -/
theorem val126 (x0 : FVec Ideal ShU .f32) (x1 : FVec Ideal ShI .f32)
    (x2 : FVec Ideal S50000x1024 .f32) (x3 : FVec Ideal S50000x768 .f32)
    (x4 : FVec Ideal S1024x64 .f32) (x5 : FVec Ideal S768x64 .f32) (x6 : FVec Ideal Sh2 .f32)
    (x7 x8 : IVec ShE 32) (x9 : FVec Ideal ShE .f32) (x10 x11 : IVec ShE 32) (x12 : FVec Ideal ShE .f32)
    (x13 x14 : IVec ShE 32) (x15 : FVec Ideal ShE .f32) :
    val_main_v126 (F := Ideal) x0 x1 x2 x3 x4 x5 x6 x7 x8 x9 x10 x11 x12 x13 x14 x15
      = extractStridedSlice ShU ![0, 0]
          (refFinal (refModal x0 x1 (projNorm 1024 x2 x4) (projNorm 768 x3 x5) x6 x7 x8 x9 x10 x11 x12 x13 x14 x15) x7 x8 x9)
          hslU := by
  unfold val_main_v126
  rw [final125]

/-- Rows `100000 … 149999` of the final array, over any arguments. -/
theorem val127 (x0 : FVec Ideal ShU .f32) (x1 : FVec Ideal ShI .f32)
    (x2 : FVec Ideal S50000x1024 .f32) (x3 : FVec Ideal S50000x768 .f32)
    (x4 : FVec Ideal S1024x64 .f32) (x5 : FVec Ideal S768x64 .f32) (x6 : FVec Ideal Sh2 .f32)
    (x7 x8 : IVec ShE 32) (x9 : FVec Ideal ShE .f32) (x10 x11 : IVec ShE 32) (x12 : FVec Ideal ShE .f32)
    (x13 x14 : IVec ShE 32) (x15 : FVec Ideal ShE .f32) :
    val_main_v127 (F := Ideal) x0 x1 x2 x3 x4 x5 x6 x7 x8 x9 x10 x11 x12 x13 x14 x15
      = extractStridedSlice ShI ![100000, 0]
          (refFinal (refModal x0 x1 (projNorm 1024 x2 x4) (projNorm 768 x3 x5) x6 x7 x8 x9 x10 x11 x12 x13 x14 x15) x7 x8 x9)
          hslI := by
  unfold val_main_v127
  rw [final125]

/-- THE USER ROWS: the reference's first result is rows `0 … 99999` of the final array. -/
theorem ref_out0 (m : (ℓ : Loc nD τ sig) → Buf (Elt Ideal) ℓ) (c : Dev nD) :
    Cert.ReferenceIdeal.Value.res_main_v126 (F := Ideal) m c
      = extractStridedSlice ShU ![0, 0]
          (refFinal
            (refModal (m ((c.tc : Thread nD τ).loc main_arg0)) (m ((c.tc : Thread nD τ).loc main_arg1))
              (projNorm 1024 (m ((c.tc : Thread nD τ).loc main_arg2)) (m ((c.tc : Thread nD τ).loc main_arg4)))
              (projNorm 768 (m ((c.tc : Thread nD τ).loc main_arg3)) (m ((c.tc : Thread nD τ).loc main_arg5)))
              (m ((c.tc : Thread nD τ).loc main_arg6))
              (m ((c.tc : Thread nD τ).loc main_arg7)) (m ((c.tc : Thread nD τ).loc main_arg8)) (m ((c.tc : Thread nD τ).loc main_arg9))
              (m ((c.tc : Thread nD τ).loc main_arg10)) (m ((c.tc : Thread nD τ).loc main_arg11)) (m ((c.tc : Thread nD τ).loc main_arg12))
              (m ((c.tc : Thread nD τ).loc main_arg13)) (m ((c.tc : Thread nD τ).loc main_arg14)) (m ((c.tc : Thread nD τ).loc main_arg15)))
            (m ((c.tc : Thread nD τ).loc main_arg7)) (m ((c.tc : Thread nD τ).loc main_arg8)) (m ((c.tc : Thread nD τ).loc main_arg9))) hslU :=
  (val_main_v126_eq m c).trans (val126 _ _ _ _ _ _ _ _ _ _ _ _ _ _ _ _)

/-- THE ITEM ROWS: the reference's second result is rows `100000 … 149999` of the final array. -/
theorem ref_out1 (m : (ℓ : Loc nD τ sig) → Buf (Elt Ideal) ℓ) (c : Dev nD) :
    Cert.ReferenceIdeal.Value.res_main_v127 (F := Ideal) m c
      = extractStridedSlice ShI ![100000, 0]
          (refFinal
            (refModal (m ((c.tc : Thread nD τ).loc main_arg0)) (m ((c.tc : Thread nD τ).loc main_arg1))
              (projNorm 1024 (m ((c.tc : Thread nD τ).loc main_arg2)) (m ((c.tc : Thread nD τ).loc main_arg4)))
              (projNorm 768 (m ((c.tc : Thread nD τ).loc main_arg3)) (m ((c.tc : Thread nD τ).loc main_arg5)))
              (m ((c.tc : Thread nD τ).loc main_arg6))
              (m ((c.tc : Thread nD τ).loc main_arg7)) (m ((c.tc : Thread nD τ).loc main_arg8)) (m ((c.tc : Thread nD τ).loc main_arg9))
              (m ((c.tc : Thread nD τ).loc main_arg10)) (m ((c.tc : Thread nD τ).loc main_arg11)) (m ((c.tc : Thread nD τ).loc main_arg12))
              (m ((c.tc : Thread nD τ).loc main_arg13)) (m ((c.tc : Thread nD τ).loc main_arg14)) (m ((c.tc : Thread nD τ).loc main_arg15)))
            (m ((c.tc : Thread nD τ).loc main_arg7)) (m ((c.tc : Thread nD τ).loc main_arg8)) (m ((c.tc : Thread nD τ).loc main_arg9))) hslI :=
  (val_main_v127_eq m c).trans (val127 _ _ _ _ _ _ _ _ _ _ _ _ _ _ _ _)

end Cert.Modal.Ref

end
-- ==== Proof.SpmmRead.lean ====
/-
  The sparse product read at an index.

  `spmm rows cols vals x` gathers the rows of the table `x` that the (wrapped) column indices name, scales gathered row
  `e` by `vals e`, and adds each scaled row into the row of a zero table that `rows e` names. Read at `(n, q)` it is the
  sum, over the triples `e` landing on row `n`, of `vals e` times the table's entry at (the row triple `e` selects, `q`).
  The landing set and the selected row depend on the index arrays only; they are kept as they stand.
-/
import Idealize.ShloMosaic.PureOps.Ideal
import Idealize.ShloMosaic.PureOps.Ideal.Laws
import Idealize.ShloMosaic.Lib.ValueIdx
import Idealize.ShloMosaic.Lib.Pipeline.Value
import proofs.«173485_j29618094473950_2_alg».proof.Proof.Spec

noncomputable section

namespace Cert.Modal

open Idealize.ShloMosaic Idealize.ShloMosaic.ValueIdx

/-- The triples landing on row `n`: those whose row index, read signed, is `n`. -/
def dst (rows : IVec ShE 32) (n : Fin 150000) : Finset (Fin 2000000) :=
  Cert.RowScatter.landing 150000 (broadcastInDim ShE1 ![0] hb_E_E1 rows) n

/-- The table row triple `e` reads: its wrapped column index, read signed and clamped into the table. -/
def src (cols : IVec ShE 32) (e : Fin 2000000) : Fin 150000 :=
  Cert.RowGather.rowOf 150000 (by norm_num) (broadcastInDim ShE1 ![0] hb_E_E1 (wrapIdx cols)) e

/-- The zero table read at any index is `0`. -/
theorem zeroTable_apply (j : ShN.Idx) :
    broadcastInDim ShN ![] hb_0_N (constant (F := Ideal) Sh0 .f32 0x00000000#32) j = 0 := by
  refine (broadcastInDim_apply (![] : Fin 0 → Fin ShN.rank) hb_0_N _ j ix0 (fun a => a.elim0)).trans ?_
  exact Ideal.ofBits_zero_f32

/-- A scalar broadcast over the node table reads, at any index, as the scalar. -/
theorem bcastN_apply (w : FVec Ideal Sh0 .f32) (j : ShN.Idx) :
    broadcastInDim ShN ![] hb_0_N w j = w ix0 :=
  broadcastInDim_apply (![] : Fin 0 → Fin ShN.rank) hb_0_N w j ix0 (fun a => a.elim0)

/-- A scalar broadcast over the triples reads, at any index, as the scalar. -/
theorem bcastE_apply (w : FVec Ideal Sh0 .f32) (j : ShE.Idx) :
    broadcastInDim ShE ![] hb_0_E w j = w ix0 :=
  broadcastInDim_apply (![] : Fin 0 → Fin ShE.rank) hb_0_E w j ix0 (fun a => a.elim0)

/-- The values broadcast along the feature axis: entry `(e, q)` is `vals e`. -/
theorem bcastVals_apply (vals : FVec Ideal ShE .f32) (e : Fin 2000000) (q : Fin 64) :
    broadcastInDim ShEC ![0, 1] hb_E1_EC (broadcastInDim ShE1 ![0] hb_E_E1 vals) (ix2 e q) = vals (ix1 e) := by
  refine (broadcastInDim_apply (![0, 1] : Fin 2 → Fin ShEC.rank) hb_E1_EC _ (ix2 e q) (ix2 e 0) ?_).trans ?_
  · intro a
    match a with
    | ⟨0, _⟩ => rfl
    | ⟨1, _⟩ => rfl
  · refine broadcastInDim_apply (![0] : Fin 1 → Fin ShE1.rank) hb_E_E1 vals (ix2 e 0) (ix1 e) ?_
    intro a
    match a with
    | ⟨0, _⟩ => rfl

/-- THE SPARSE PRODUCT READ AT `(n, q)`. -/
theorem spmm_apply (rows cols : IVec ShE 32) (vals : FVec Ideal ShE .f32) (x : FVec Ideal ShN .f32) (n : Fin 150000) (q : Fin 64) :
    spmm rows cols vals x (ix2 n q) = ∑ e ∈ Cert.RowScatter.landing 150000 (broadcastInDim ShE1 ![0] hb_E_E1 rows) n,
      vals (ix1 e) * x (ix2 (Cert.RowGather.rowOf 150000 (by norm_num) (broadcastInDim ShE1 ![0] hb_E_E1 (wrapIdx cols)) e) q) := by
  unfold spmm
  rw [Cert.RowScatter.host_scatterAdd_rows_apply hwfS, zeroTable_apply, zero_add]
  refine Finset.sum_congr rfl fun e _ => ?_
  rw [mulf_apply, bcastVals_apply, Cert.RowGather.gather_rows_apply (by norm_num) hwfG]

/-- The same with the short names. -/
theorem spmm_apply' (rows cols : IVec ShE 32) (vals : FVec Ideal ShE .f32) (x : FVec Ideal ShN .f32) (n : Fin 150000) (q : Fin 64) :
    spmm rows cols vals x (ix2 n q) = ∑ e ∈ dst rows n, vals (ix1 e) * x (ix2 (src cols e) q) :=
  spmm_apply rows cols vals x n q

end Cert.Modal

end
-- ==== Proof.Algebra.lean ====
/-
  The final algebra: under finiteness the kernel's array is the reference's.

  With `B = adj · X`, `A₁ = ia · X₁`, `A₂ = ta · X₂` (sparse products of real triples with real tables), `c` the real the
  adjacency-weight literal denotes and `w₀ + w₁ = 1`:
  * the reference mixes `w₀ · (B + c · A₁) + w₁ · (B + c · A₂)`; the kernel adds `B + A₁' + A₂'`, where `Aₖ'` is the product
    whose values carry the factor `wₖ · c`. Pulling the factor out of the finite sum and using `w₀ + w₁ = 1` the two agree;
  * on a real mix `M`, `M · 3/2 + adj · M = (M + adj · M) + 1/2 · M`.
  Distributivity fails on the extended reals at the infinities, so every step is taken on real witnesses and carried back
  along the coercion.
-/
import Idealize.ShloMosaic.PureOps.Ideal
import Idealize.ShloMosaic.PureOps.Ideal.Laws
import Idealize.ShloMosaic.Lib.ValueIdx
import Idealize.ShloMosaic.Lib.Pipeline.Value
import proofs.«173485_j29618094473950_2_alg».proof.Proof.Spec
import proofs.«173485_j29618094473950_2_alg».proof.Proof.SpmmRead

noncomputable section

namespace Cert.Modal

open Idealize.ShloMosaic Idealize.ShloMosaic.ValueIdx

/-! ## The real algebra -/

/-- A constant factor carried by every value of a sparse sum comes out of the sum. -/
theorem sum_scaled {E : Type} (L : Finset E) (v y : E → ℝ) (k : ℝ) :
    ∑ e ∈ L, (v e * k) * y e = k * ∑ e ∈ L, v e * y e := by
  rw [Finset.mul_sum]
  exact Finset.sum_congr rfl fun e _ => by ring

/-- The two mixes over the reals: with `r₀ + r₁ = 1`,
    `b + ∑ (v₁ (r₀ c)) y₁ + ∑ (v₂ (r₁ c)) y₂ = r₀ (b + c ∑ v₁ y₁) + r₁ (b + c ∑ v₂ y₂)`. -/
theorem mix_real {E : Type} (L1 L2 : Finset E) (v1 y1 v2 y2 : E → ℝ) (b r0 r1 c : ℝ) (h : r0 + r1 = 1) :
    (b + ∑ e ∈ L1, (v1 e * (r0 * c)) * y1 e) + ∑ e ∈ L2, (v2 e * (r1 * c)) * y2 e
      = r0 * (b + c * ∑ e ∈ L1, v1 e * y1 e) + r1 * (b + c * ∑ e ∈ L2, v2 e * y2 e) := by
  rw [sum_scaled, sum_scaled]
  have h1 : r1 = 1 - r0 := by linarith
  subst h1
  ring

/-- The last step over the reals: `m · 3/2 + s = (m + s) + 1/2 · m`. -/
theorem final_real (m s : ℝ) : m * (3 / 2) + s = (m + s) + (1 / 2) * m := by ring

/-! ## Coercions -/

/-- The coercion of a finite real sum is the sum of the coercions. -/
theorem coe_finset_sum {ι : Type} (s : Finset ι) (f : ι → ℝ) :
    ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-! ## The literals -/

/-- `0x3FC00000` is three halves. -/
theorem lit_three_halves : Ideal.ofBits .f32 0x3FC00000#32 = ((3 / 2 : ℝ) : EReal) := by
  simp [Ideal.ofBits, Ideal.ieee]
  rw [← EReal.coe_mul]
  norm_num

/-- `0x3F000000` is one half. -/
theorem lit_half : Ideal.ofBits .f32 0x3F000000#32 = ((1 / 2 : ℝ) : EReal) := by
  simp [Ideal.ofBits, Ideal.ieee]
  rw [← EReal.coe_mul]
  norm_num

/-- `0x3E4CCCCD` is a real (the single-precision number nearest one fifth). -/
theorem lit_cw : Ideal.ofBits .f32 0x3E4CCCCD#32 = ((13421773 / 67108864 : ℝ) : EReal) := by
  simp [Ideal.ofBits, Ideal.ieee]
  rw [← EReal.coe_mul]
  norm_num

theorem cw_apply : cw ix0 = ((13421773 / 67108864 : ℝ) : EReal) := lit_cw

/-! ## Finite arrays stay finite -/

/-- Every entry of a concatenation is an entry of one operand. -/
theorem cat_isReal (u : FVec Ideal ShU .f32) (z : FVec Ideal ShI .f32) (hu : IsReal u) (hz : IsReal z) :
    IsReal (cat u z) := by
  intro j
  obtain ⟨n, q, rfl⟩ : ∃ (n : Fin 150000) (q : Fin 64), j = ix2 n q := ⟨j 0, j 1, eq_ix2 j⟩
  unfold cat
  by_cases h : n.val < 100000
  · have e := concatenate_pair_apply_left (t := ShN) (s₁ := ShU) (s₂ := ShI) (0 : Fin ShN.rank) u z hcat (ix2 n q) rfl
      (ix2 ⟨n.val, h⟩ q) (fun b => by
        match b with
        | ⟨0, _⟩ => rfl
        | ⟨1, _⟩ => rfl)
    rw [e]
    exact hu _
  · have h' : n.val - 100000 < 50000 := by have := n.isLt; omega
    have e := concatenate_pair_apply_right (t := ShN) (s₁ := ShU) (s₂ := ShI) (0 : Fin ShN.rank) u z hcat (ix2 n q) rfl rfl
      (ix2 ⟨n.val - 100000, h'⟩ q) (fun b hb => by
        have hlt : b.val < 2 := b.isLt
        have hne : b.val ≠ 0 := fun h0 => hb (Fin.ext h0)
        have h1 : b = ⟨1, by decide⟩ := Fin.ext (by show b.val = 1; omega)
        subst h1
        rfl)
      (by show n.val - 100000 + 100000 = n.val; omega)
    rw [e]
    exact hz _

/-- The sparse product of real triples with a real table, read at `(n, q)`, is the coercion of the real sum. -/
theorem spmm_coe (rows cols : IVec ShE 32) (vals : FVec Ideal ShE .f32) (x : FVec Ideal ShN .f32)
    (fv : ShE.Idx → ℝ) (fx : ShN.Idx → ℝ) (hv : ∀ i, vals i = (fv i : EReal)) (hx : ∀ j, x j = (fx j : EReal))
    (n : Fin 150000) (q : Fin 64) :
    spmm rows cols vals x (ix2 n q)
      = ((∑ e ∈ dst rows n, fv (ix1 e) * fx (ix2 (src cols e) q) : ℝ) : EReal) := by
  rw [spmm_apply', coe_finset_sum]
  refine Finset.sum_congr rfl fun e _ => ?_
  rw [hv, hx, EReal.coe_mul]

/-- The sparse product of real triples with a real table is real. -/
theorem spmm_isReal (rows cols : IVec ShE 32) (vals : FVec Ideal ShE .f32) (x : FVec Ideal ShN .f32)
    (hv : IsReal vals) (hx : IsReal x) : IsReal (spmm rows cols vals x) := by
  choose fv hfv using hv
  choose fx hfx using hx
  intro j
  obtain ⟨n, q, rfl⟩ : ∃ (n : Fin 150000) (q : Fin 64), j = ix2 n q := ⟨j 0, j 1, eq_ix2 j⟩
  exact ⟨_, spmm_coe rows cols vals x fv fx hfv hfx n q⟩

/-- The scaled values, on real witnesses: `v e · (w · c)`. -/
theorem scaleVals_coe (v : FVec Ideal ShE .f32) (w : FVec Ideal Sh0 .f32) (fv : ShE.Idx → ℝ) (r : ℝ)
    (hv : ∀ i, v i = (fv i : EReal)) (hw : w ix0 = (r : EReal)) (i : ShE.Idx) :
    scaleVals v w i = ((fv i * (r * (13421773 / 67108864)) : ℝ) : EReal) := by
  unfold scaleVals
  rw [mulf_apply, bcastE_apply, mulf_apply, hv, hw, cw_apply, ← EReal.coe_mul, ← EReal.coe_mul]

/-! ## The mixes agree -/

/-- The reference's mix of three arrays under scalar weights `W₀`, `W₁` and a scalar factor `C`. -/
def refMix (W0 W1 C : FVec Ideal Sh0 .f32) (B A1 A2 : FVec Ideal ShN .f32) : FVec Ideal ShN .f32 :=
  addf
    (mulf (broadcastInDim ShN ![] hb_0_N W0) (addf B (mulf (broadcastInDim ShN ![] hb_0_N C) A1)))
    (mulf (broadcastInDim ShN ![] hb_0_N W1) (addf B (mulf (broadcastInDim ShN ![] hb_0_N C) A2)))

/-- The reference's mix is `refMix` of the modal weights, the adjacency weight and the three sparse products. -/
theorem refModal_eq_refMix (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32) :
    refModal u i P1 P2 a r7 c8 v9 r10 c11 v12 r13 c14 v15
      = refMix (w0 a) (w1 a) cw (spmm r7 c8 v9 (cat u i)) (spmm r10 c11 v12 (cat u P1)) (spmm r13 c14 v15 (cat u P2)) := rfl

/-- `refMix` read at an index: `W₀ · (B + C · A₁) + W₁ · (B + C · A₂)`. -/
theorem refMix_apply (W0 W1 C : FVec Ideal Sh0 .f32) (B A1 A2 : FVec Ideal ShN .f32) (j : ShN.Idx) :
    refMix W0 W1 C B A1 A2 j = W0 ix0 * (B j + C ix0 * A1 j) + W1 ix0 * (B j + C ix0 * A2 j) := by
  show broadcastInDim ShN ![] hb_0_N W0 j * (B j + broadcastInDim ShN ![] hb_0_N C j * A1 j)
    + broadcastInDim ShN ![] hb_0_N W1 j * (B j + broadcastInDim ShN ![] hb_0_N C j * A2 j) = _
  rw [bcastN_apply W0, bcastN_apply W1, bcastN_apply C]

/-- The two mixes at one entry, on real witnesses. -/
theorem mix_coe_eq (b a1 a2 r0 r1 c : ℝ) (h : r0 + r1 = 1) :
    ((b : EReal) + ((r0 * c * a1 : ℝ) : EReal)) + ((r1 * c * a2 : ℝ) : EReal)
      = (r0 : EReal) * ((b : EReal) + (c : EReal) * (a1 : EReal)) + (r1 : EReal) * ((b : EReal) + (c : EReal) * (a2 : EReal)) := by
  simp only [← EReal.coe_mul, ← EReal.coe_add]
  refine congrArg _ ?_
  have h1 : r1 = 1 - r0 := by linarith
  subst h1
  ring

/-- The two mixes at one entry: arrays real there, the scaled products carrying the factors `r₀ c`, `r₁ c`. -/
theorem mix_point (W0 W1 C : FVec Ideal Sh0 .f32) (r0 r1 c : ℝ)
    (h0 : W0 ix0 = (r0 : EReal)) (h1 : W1 ix0 = (r1 : EReal)) (hc : C ix0 = (c : EReal)) (h01 : r0 + r1 = 1)
    (B A1 A2 A1' A2' : FVec Ideal ShN .f32) (j : ShN.Idx) (b a1 a2 : ℝ)
    (hB : B j = (b : EReal)) (hA1 : A1 j = (a1 : EReal)) (hA2 : A2 j = (a2 : EReal))
    (hA1' : A1' j = ((r0 * c * a1 : ℝ) : EReal)) (hA2' : A2' j = ((r1 * c * a2 : ℝ) : EReal)) :
    (B j + A1' j) + A2' j = refMix W0 W1 C B A1 A2 j := by
  rw [refMix_apply, hB, hA1, hA2, hA1', hA2', h0, h1, hc]
  exact mix_coe_eq b a1 a2 r0 r1 c h01

/-- A sparse product whose values carry a constant real factor is that factor times the plain product. -/
theorem spmm_scaled_coe (rows cols : IVec ShE 32) (vals : FVec Ideal ShE .f32) (x : FVec Ideal ShN .f32)
    (fv : ShE.Idx → ℝ) (fx : ShN.Idx → ℝ) (k : ℝ) (hv : ∀ i, vals i = ((fv i * k : ℝ) : EReal)) (hx : ∀ j, x j = (fx j : EReal))
    (n : Fin 150000) (q : Fin 64) :
    spmm rows cols vals x (ix2 n q)
      = ((k * ∑ e ∈ dst rows n, fv (ix1 e) * fx (ix2 (src cols e) q) : ℝ) : EReal) := by
  refine (spmm_coe rows cols vals x (fun i => fv i * k) fx hv hx n q).trans (congrArg _ ?_)
  exact sum_scaled (dst rows n) (fun e => fv (ix1 e)) (fun e => fx (ix2 (src cols e) q)) k

theorem modal_eq (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32)
    (hu : IsReal u) (hi : IsReal i) (hP1 : IsReal P1) (hP2 : IsReal P2)
    (hv9 : IsReal v9) (hv12 : IsReal v12) (hv15 : IsReal v15)
    (hw : ∃ r0 r1 : ℝ, w0 a ValueIdx.ix0 = (r0 : EReal) ∧ w1 a ValueIdx.ix0 = (r1 : EReal) ∧ r0 + r1 = 1) :
    kerModal u i P1 P2 a r7 c8 v9 r10 c11 v12 r13 c14 v15 = refModal u i P1 P2 a r7 c8 v9 r10 c11 v12 r13 c14 v15 := by
  obtain ⟨r0, r1, hw0, hw1, h01⟩ := hw
  choose fX hX using cat_isReal u i hu hi
  choose fX1 hX1 using cat_isReal u P1 hu hP1
  choose fX2 hX2 using cat_isReal u P2 hu hP2
  choose f9 h9 using hv9
  choose f12 h12 using hv12
  choose f15 h15 using hv15
  rw [refModal_eq_refMix]
  funext j
  obtain ⟨n, q, rfl⟩ : ∃ (n : Fin 150000) (q : Fin 64), j = ix2 n q := ⟨j 0, j 1, eq_ix2 j⟩
  have hB := spmm_coe r7 c8 v9 (cat u i) f9 fX h9 hX n q
  have hA1 := spmm_coe r10 c11 v12 (cat u P1) f12 fX1 h12 hX1 n q
  have hA2 := spmm_coe r13 c14 v15 (cat u P2) f15 fX2 h15 hX2 n q
  have hA1' := spmm_scaled_coe r10 c11 (scaleVals v12 (w0 a)) (cat u P1) f12 fX1 (r0 * (13421773 / 67108864))
    (scaleVals_coe v12 (w0 a) f12 r0 h12 hw0) hX1 n q
  have hA2' := spmm_scaled_coe r13 c14 (scaleVals v15 (w1 a)) (cat u P2) f15 fX2 (r1 * (13421773 / 67108864))
    (scaleVals_coe v15 (w1 a) f15 r1 h15 hw1) hX2 n q
  exact mix_point (w0 a) (w1 a) cw r0 r1 (13421773 / 67108864) hw0 hw1 cw_apply h01
    (spmm r7 c8 v9 (cat u i)) (spmm r10 c11 v12 (cat u P1)) (spmm r13 c14 v15 (cat u P2))
    (spmm r10 c11 (scaleVals v12 (w0 a)) (cat u P1)) (spmm r13 c14 (scaleVals v15 (w1 a)) (cat u P2))
    (ix2 n q) _ _ _ hB hA1 hA2 hA1' hA2'

/-- The kernel's mix is real. -/
theorem kerModal_isReal (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32)
    (hu : IsReal u) (hi : IsReal i) (hP1 : IsReal P1) (hP2 : IsReal P2)
    (hv9 : IsReal v9) (hv12 : IsReal v12) (hv15 : IsReal v15)
    (hw : ∃ r0 r1 : ℝ, w0 a ValueIdx.ix0 = (r0 : EReal) ∧ w1 a ValueIdx.ix0 = (r1 : EReal) ∧ r0 + r1 = 1) :
    IsReal (kerModal u i P1 P2 a r7 c8 v9 r10 c11 v12 r13 c14 v15) := by
  obtain ⟨r0, r1, hw0, hw1, _⟩ := hw
  have hs12 : IsReal (scaleVals v12 (w0 a)) := by
    choose f12 h12 using hv12
    exact fun e => ⟨_, scaleVals_coe v12 (w0 a) f12 r0 h12 hw0 e⟩
  have hs15 : IsReal (scaleVals v15 (w1 a)) := by
    choose f15 h15 using hv15
    exact fun e => ⟨_, scaleVals_coe v15 (w1 a) f15 r1 h15 hw1 e⟩
  intro j
  obtain ⟨b, hb⟩ := spmm_isReal r7 c8 v9 (cat u i) hv9 (cat_isReal u i hu hi) j
  obtain ⟨a1, ha1⟩ := spmm_isReal r10 c11 (scaleVals v12 (w0 a)) (cat u P1) hs12 (cat_isReal u P1 hu hP1) j
  obtain ⟨a2, ha2⟩ := spmm_isReal r13 c14 (scaleVals v15 (w1 a)) (cat u P2) hs15 (cat_isReal u P2 hu hP2) j
  refine ⟨b + a1 + a2, ?_⟩
  unfold kerModal
  show spmm r7 c8 v9 (cat u i) j + spmm r10 c11 (scaleVals v12 (w0 a)) (cat u P1) j
    + spmm r13 c14 (scaleVals v15 (w1 a)) (cat u P2) j = _
  rw [hb, ha1, ha2, ← EReal.coe_add, ← EReal.coe_add]

/-! ## The last step agrees on a real mix -/

theorem final_step (M : FVec Ideal ShN .f32) (r7 c8 : IVec ShE 32) (v9 : FVec Ideal ShE .f32)
    (hM : IsReal M) (hv9 : IsReal v9) : kerFinal M r7 c8 v9 = refFinal M r7 c8 v9 := by
  funext j
  obtain ⟨m, hm⟩ := hM j
  obtain ⟨s, hs⟩ := spmm_isReal r7 c8 v9 M hv9 hM j
  unfold kerFinal refFinal
  simp only [addf_apply, mulf_apply]
  rw [bcastN_apply, constant_apply, hm, hs, lit_three_halves, lit_half]
  simp only [← EReal.coe_mul, ← EReal.coe_add]
  exact congrArg _ (final_real m s)

/-! ## The certificate's algebra -/

theorem final_eq (u : FVec Ideal ShU .f32) (i P1 P2 : FVec Ideal ShI .f32) (a : FVec Ideal Sh2 .f32)
    (r7 c8 : IVec ShE 32) (v9 : FVec Ideal ShE .f32) (r10 c11 : IVec ShE 32) (v12 : FVec Ideal ShE .f32)
    (r13 c14 : IVec ShE 32) (v15 : FVec Ideal ShE .f32)
    (hu : IsReal u) (hi : IsReal i) (hP1 : IsReal P1) (hP2 : IsReal P2)
    (hv9 : IsReal v9) (hv12 : IsReal v12) (hv15 : IsReal v15)
    (hw : ∃ r0 r1 : ℝ, w0 a ValueIdx.ix0 = (r0 : EReal) ∧ w1 a ValueIdx.ix0 = (r1 : EReal) ∧ r0 + r1 = 1) :
    kerFinal (kerModal u i P1 P2 a r7 c8 v9 r10 c11 v12 r13 c14 v15) r7 c8 v9
      = refFinal (refModal u i P1 P2 a r7 c8 v9 r10 c11 v12 r13 c14 v15) r7 c8 v9 := by
  have hK := kerModal_isReal u i P1 P2 a r7 c8 v9 r10 c11 v12 r13 c14 v15 hu hi hP1 hP2 hv9 hv12 hv15 hw
  rw [← modal_eq u i P1 P2 a r7 c8 v9 r10 c11 v12 r13 c14 v15 hu hi hP1 hP2 hv9 hv12 hv15 hw]
  exact final_step _ r7 c8 v9 hK hv9

end Cert.Modal

end
-- ==== Proof.Weights.lean ====
/-
  The two modal weights are real numbers that add up to one.

  `softmax` of two real entries `a₀, a₁`: the running maximum `M` from `-∞` over the two entries is a real number (it is at
  least `a₀` and below `+∞`), so the shifted exponentials `e_k = exp (a_k - M)` are positive reals, their sum
  `s = 0 + e₀ + e₁` is a positive real, and the weights `w_k = e_k / s` are reals with `w₀ + w₁ = (e₀ + e₁) / s = 1`.
-/
import Idealize.ShloMosaic.PureOps.Ideal.Laws
import Idealize.ShloMosaic.Lib.IdealHost
import Idealize.ShloMosaic.Lib.Pipeline.Value
import proofs.«173485_j29618094473950_2_alg».proof.Proof.Spec

namespace Cert.Modal

open Idealize.ShloMosaic Idealize.ShloMosaic.ValueIdx

/-- The pattern of `-∞` is the bottom of the extended reals. -/
theorem ofBits_neg_inf : Ideal.ofBits .f32 0xFF800000#32 = ⊥ := by simp [Ideal.ofBits, Ideal.ieee]

/-- A scalar spread over one cell and then over two reads the scalar at both. -/
theorem spread2_apply (y : FVec Ideal Sh0 .f32) (i : Sh2.Idx) :
    broadcastInDim Sh2 ![0] hb_1_2 (broadcastInDim Sh1 ![] hb_0_1 y) i = y ix0 := by
  unfold broadcastInDim
  exact congrArg y (funext fun d => d.elim0)

/-- The two cells of the weight vector, as an equivalence with `Fin 2`. -/
def cells2 : Fin 2 ≃ Sh2.Idx where
  toFun := ix1
  invFun j := j 0
  left_inv _ := rfl
  right_inv j := (eq_ix1 j).symm

/-- A sum over the two cells. -/
theorem sum_cells2 (f : Sh2.Idx → EReal) : ∑ j : Sh2.Idx, f j = f (ix1 0) + f (ix1 1) := by
  rw [← Equiv.sum_comp cells2 f, Fin.sum_univ_two]
  rfl

/-- The running maximum of real entries, started at `-∞`, is a real number. -/
theorem smax_real (a : FVec Ideal Sh2 .f32) (ha : IsReal a) : ∃ m : ℝ, smax a ix0 = (m : EReal) := by
  have h1 : smax a ix0 = max ⊥ ((Finset.univ.filter fun i => hred.drop i = ix0).fold max ⊥ a) := by
    unfold smax
    rw [maximumf_apply, constant_apply, Host.reduce_eq_fold, constant_apply, ofBits_neg_inf]
    rfl
  have hlt : (Finset.univ.filter fun i => hred.drop i = ix0).fold max ⊥ a < ⊤ := by
    rw [Finset.fold_max_lt]
    refine ⟨bot_lt_top, fun i _ => ?_⟩
    obtain ⟨r, hr⟩ := ha i
    rw [hr]; exact EReal.coe_lt_top r
  have hgt : ⊥ < (Finset.univ.filter fun i => hred.drop i = ix0).fold max ⊥ a := by
    rw [Finset.lt_fold_max]
    refine Or.inr ⟨ix1 0, Finset.mem_filter.2 ⟨Finset.mem_univ _, eq_ix0 _⟩, ?_⟩
    obtain ⟨r, hr⟩ := ha (ix1 0)
    rw [hr]; exact EReal.bot_lt_coe r
  rw [h1, max_eq_right bot_le]
  exact ⟨_, (EReal.coe_toReal hlt.ne hgt.ne').symm⟩

/-- A shifted exponential at a cell. -/
theorem sexp_apply (a : FVec Ideal Sh2 .f32) (i : Sh2.Idx) : sexp a i = Ideal.exp (a i - smax a ix0) := by
  unfold sexp
  show Ideal.exp (subf a _ i) = _
  rw [subf_apply, spread2_apply]

/-- A weight at a cell: the shifted exponential over the sum of the two, from zero. -/
theorem soft_apply (a : FVec Ideal Sh2 .f32) (i : Sh2.Idx) :
    soft a i = Ideal.div (sexp a i) (0 + (sexp a (ix1 0) + sexp a (ix1 1))) := by
  unfold soft
  rw [hostDivf_apply, spread2_apply, hostReduceAdd_apply,
    Ideal.hostReduceAdd_total hred (fun b => b.elim0), constant_apply, Ideal.ofBits_zero_f32, sum_cells2]

theorem w0_apply (a : FVec Ideal Sh2 .f32) : w0 a ix0 = soft a (ix1 0) := by
  unfold w0
  refine (shapeCast_apply _ hsc10 ix0 (ix1 0) (by decide)).trans ?_
  exact extractStridedSlice_apply _ _ hsl0 (ix1 0) (ix1 0) fun d => match d with | ⟨0, _⟩ => rfl

theorem w1_apply (a : FVec Ideal Sh2 .f32) : w1 a ix0 = soft a (ix1 1) := by
  unfold w1
  refine (shapeCast_apply _ hsc10 ix0 (ix1 0) (by decide)).trans ?_
  exact extractStridedSlice_apply _ _ hsl1 (ix1 0) (ix1 1) fun d => match d with | ⟨0, _⟩ => rfl

/-- The two modal weights are real numbers that add up to one. -/
theorem weights_real (a : FVec Ideal Sh2 .f32) (ha : IsReal a) :
    ∃ r0 r1 : ℝ, w0 a ValueIdx.ix0 = (r0 : EReal) ∧ w1 a ValueIdx.ix0 = (r1 : EReal) ∧ r0 + r1 = 1 := by
  obtain ⟨m, hm⟩ := smax_real a ha
  obtain ⟨a0, h0⟩ := ha (ix1 0)
  obtain ⟨a1, h1⟩ := ha (ix1 1)
  have e0 : sexp a (ix1 0) = ((Real.exp (a0 - m) : ℝ) : EReal) := by
    rw [sexp_apply, h0, hm, ← EReal.coe_sub, Ideal.exp_coe]
  have e1 : sexp a (ix1 1) = ((Real.exp (a1 - m) : ℝ) : EReal) := by
    rw [sexp_apply, h1, hm, ← EReal.coe_sub, Ideal.exp_coe]
  have hs : (0 : EReal) + (sexp a (ix1 0) + sexp a (ix1 1)) = ((Real.exp (a0 - m) + Real.exp (a1 - m) : ℝ) : EReal) := by
    rw [e0, e1, zero_add, ← EReal.coe_add]
  have hpos : (0 : ℝ) < Real.exp (a0 - m) + Real.exp (a1 - m) := by positivity
  refine ⟨Real.exp (a0 - m) * (1 / (Real.exp (a0 - m) + Real.exp (a1 - m))),
    Real.exp (a1 - m) * (1 / (Real.exp (a0 - m) + Real.exp (a1 - m))), ?_, ?_, ?_⟩
  · rw [w0_apply, soft_apply, hs, Ideal.div_coe hpos.ne', e0, ← EReal.coe_mul]
  · rw [w1_apply, soft_apply, hs, Ideal.div_coe hpos.ne', e1, ← EReal.coe_mul]
  · field_simp

end Cert.Modal
-- ==== Proof.ProjReal.lean ====
/-
  A projected, ramped and unit-scaled feature table of real inputs is real.

  A finite sum of products of reals is a real; the leaky ramp of a real is that real or a real multiple of it (the slope's
  pattern denotes a real); a row's sum of squares is a real that is not negative, so its square root is a real; the larger
  of that root and the floor (a pattern that denotes a POSITIVE real) is a positive real, and a real divided by a real
  that is not zero is a real.
-/
import Idealize.ShloMosaic.PureOps.Ideal.Laws
import proofs.«173485_j29618094473950_2_alg».proof.Proof.Spec

namespace Cert.Modal

open Idealize.ShloMosaic Idealize.ShloMosaic.ValueIdx

/-- A finite sum of real coercions is the coercion of the sum. -/
theorem coe_sum {ι : Type*} (s : Finset ι) (g : ι → ℝ) :
    ∑ i ∈ s, ((g i : ℝ) : EReal) = ((∑ i ∈ s, g i : ℝ) : EReal) := by
  induction s using Finset.cons_induction with
  | empty => simp
  | cons a s ha ih => rw [Finset.sum_cons, Finset.sum_cons, ih, EReal.coe_add]

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A normal pattern with a clear sign bit denotes a positive real number. -/
theorem ieee_pos (e m : Nat) {w : Nat} (b : BitVec w) (hs : (b.extractLsb' (e + m) 1 == 1#1) = false)
    (h : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h, if_neg h0, hs]
  refine ⟨_, ?_, rfl⟩
  simp only [Bool.false_eq_true, if_false, one_mul]
  positivity

/-- The ramp's slope below zero is a real number. -/
theorem slope_real : ∃ c : ℝ, Ideal.ofBits .f32 0x3E4CCCCD#32 = (c : EReal) :=
  show ∃ c : ℝ, Ideal.ieee 8 23 (0x3E4CCCCD#32 : BitVec 32) = (c : EReal) from
    ieee_real 8 23 (0x3E4CCCCD#32 : BitVec 32) (by decide)

/-- The norm's floor is a positive real number. -/
theorem floor_pos : ∃ c : ℝ, 0 < c ∧ Ideal.ofBits .f32 0x2B8CBCCC#32 = (c : EReal) :=
  show ∃ c : ℝ, 0 < c ∧ Ideal.ieee 8 23 (0x2B8CBCCC#32 : BitVec 32) = (c : EReal) from
    ieee_pos 8 23 (0x2B8CBCCC#32 : BitVec 32) (by decide) (by decide) (by decide)

/-- The leaky ramp of a real is a real. -/
theorem leaky_real (r : ℝ) : ∃ t : ℝ, leaky (r : EReal) = (t : EReal) := by
  obtain ⟨c, hc⟩ := slope_real
  unfold leaky
  split_ifs
  · exact ⟨r, rfl⟩
  · exact ⟨c * r, by rw [hc, EReal.coe_mul]⟩

/-- A projected feature of real inputs is a real. -/
theorem feat_real (K : Nat) (x : FVec Ideal ⟨2, ![50000, K]⟩ .f32) (w : FVec Ideal ⟨2, ![K, 64]⟩ .f32) (hx : IsReal x)
    (hw : IsReal w) (p : Fin 50000) (q : Fin 64) : ∃ t : ℝ, feat K x w p q = (t : EReal) := by
  choose fx hfx using hx
  choose fw hfw using hw
  have hsum : ∑ k : Fin K, x (ix2 p k) * w (ix2 k q) = ((∑ k : Fin K, fx (ix2 p k) * fw (ix2 k q) : ℝ) : EReal) := by
    rw [← coe_sum]
    exact Finset.sum_congr rfl fun k _ => by rw [hfx, hfw, EReal.coe_mul]
  unfold feat
  rw [hsum]
  exact leaky_real _

/-- The unit-scaled feature of real inputs is a real. -/
theorem projNormAt_real (K : Nat) (x : FVec Ideal ⟨2, ![50000, K]⟩ .f32) (w : FVec Ideal ⟨2, ![K, 64]⟩ .f32) (hx : IsReal x)
    (hw : IsReal w) (p : Fin 50000) (q : Fin 64) : ∃ t : ℝ, projNormAt K x w p q = (t : EReal) := by
  choose f hf using feat_real K x w hx hw p
  obtain ⟨c, hc0, hc⟩ := floor_pos
  have hss : ∑ d : Fin 64, feat K x w p d * feat K x w p d = ((∑ d : Fin 64, f d * f d : ℝ) : EReal) := by
    rw [← coe_sum]
    exact Finset.sum_congr rfl fun d _ => by rw [hf, EReal.coe_mul]
  have hnn : ¬ (∑ d : Fin 64, f d * f d) < 0 := not_lt.2 (Finset.sum_nonneg fun d _ => mul_self_nonneg _)
  have hmax : (0 : ℝ) < max (Real.sqrt (∑ d : Fin 64, f d * f d)) c := lt_max_of_lt_right hc0
  unfold projNormAt
  rw [hss, Ideal.sqrt_coe, if_neg hnn, hc, ← EReal.coe_strictMono.monotone.map_max, Ideal.div_coe hmax.ne', hf,
    ← EReal.coe_mul]
  exact ⟨_, rfl⟩

/-- The projected, ramped and unit-scaled table of real inputs is real. -/
theorem projNorm_isReal (K : Nat) (x : FVec Ideal ⟨2, ![50000, K]⟩ .f32) (w : FVec Ideal ⟨2, ![K, 64]⟩ .f32)
    (hx : IsReal x) (hw : IsReal w) : IsReal (projNorm K x w) :=
  fun j => projNormAt_real K x w hx hw (j 0) (j 1)

end Cert.Modal
-- ==== Proof.FiniteInputs.lean ====
/-
  The precondition says every float argument is finite, so every entry of each is a real number.

  The precondition is, argument by argument, "every entry's magnitude is below `+∞`", the ten answers joined by
  `and`. A conjunction that is one has both parts one; an `and`-reduction over a whole array that is one had a one at
  every entry; and an extended real whose magnitude `max x (-x)` is below `+∞` is neither infinity: at `-∞` the
  magnitude is `+∞`, at `+∞` too.
-/
import Idealize.ShloMosaic.PureOps.Ideal.Laws
import Idealize.ShloMosaic.Lib.ReduceAll
import Idealize.ShloMosaic.Lib.ValueIdx
import proofs.«173485_j29618094473950_2_alg».proof.Defs
import proofs.«173485_j29618094473950_2_alg».proof.Pre_finite_inputs
import proofs.«173485_j29618094473950_2_alg».proof.Proof.Spec

namespace Cert.Modal

open Idealize.ShloMosaic Idealize.ShloMosaic.ValueIdx

/-- A rank-zero array has one index. -/
instance subsingleton_scalar_idx : Subsingleton Cert.Pre_finite_inputs.S_.Idx :=
  ⟨fun a b => funext fun d => d.elim0⟩

/-- An extended real whose magnitude is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- An array all of whose entries pass the test "magnitude below `+∞`" is real. -/
theorem isReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim S ![] hb (constant (F := Ideal) Cert.Pre_finite_inputs.S_ .f32 0x7F800000#32)))
        init hr hu ix0 = 1#1) : IsReal x := by
  intro i
  exact real_of_abs_lt_top (x i) (Host.reduce_andi_all _ init hr hu ix0 e i)

/-- Under the precondition every float argument is real. -/
theorem inputs_real [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (S := ShU) (m ((c.tc : Thread Cert.KernelIdeal.nD Cert.KernelIdeal.τ).loc Cert.KernelIdeal.main_arg0))
      ∧ IsReal (S := ShI) (m ((c.tc : Thread Cert.KernelIdeal.nD Cert.KernelIdeal.τ).loc Cert.KernelIdeal.main_arg1))
      ∧ IsReal (S := ⟨2, ![50000, 1024]⟩) (m ((c.tc : Thread Cert.KernelIdeal.nD Cert.KernelIdeal.τ).loc Cert.KernelIdeal.main_arg2))
      ∧ IsReal (S := ⟨2, ![50000, 768]⟩) (m ((c.tc : Thread Cert.KernelIdeal.nD Cert.KernelIdeal.τ).loc Cert.KernelIdeal.main_arg3))
      ∧ IsReal (S := ⟨2, ![1024, 64]⟩) (m ((c.tc : Thread Cert.KernelIdeal.nD Cert.KernelIdeal.τ).loc Cert.KernelIdeal.main_arg4))
      ∧ IsReal (S := ⟨2, ![768, 64]⟩) (m ((c.tc : Thread Cert.KernelIdeal.nD Cert.KernelIdeal.τ).loc Cert.KernelIdeal.main_arg5))
      ∧ IsReal (S := Sh2) (m ((c.tc : Thread Cert.KernelIdeal.nD Cert.KernelIdeal.τ).loc Cert.KernelIdeal.main_arg6))
      ∧ IsReal (S := ShE) (m ((c.tc : Thread Cert.KernelIdeal.nD Cert.KernelIdeal.τ).loc Cert.KernelIdeal.main_arg9))
      ∧ IsReal (S := ShE) (m ((c.tc : Thread Cert.KernelIdeal.nD Cert.KernelIdeal.τ).loc Cert.KernelIdeal.main_arg12))
      ∧ IsReal (S := ShE) (m ((c.tc : Thread Cert.KernelIdeal.nD Cert.KernelIdeal.τ).loc Cert.KernelIdeal.main_arg15)) := by
  have h0 := congrFun (h c) ix0
  dsimp only [Cert.Pre_finite_inputs.fn, Cert.Pre_finite_inputs.fn_part1, Cert.Pre_finite_inputs.fn_part2] at h0
  obtain ⟨h43, e15⟩ := IntOp.andi_eq_one.1 h0
  obtain ⟨h38, e12⟩ := IntOp.andi_eq_one.1 h43
  obtain ⟨h33, e9⟩ := IntOp.andi_eq_one.1 h38
  obtain ⟨h28, e6⟩ := IntOp.andi_eq_one.1 h33
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨isReal_of_all _ _ _ _ _ e0, isReal_of_all _ _ _ _ _ e1, isReal_of_all _ _ _ _ _ e2,
    isReal_of_all _ _ _ _ _ e3, isReal_of_all _ _ _ _ _ e4, isReal_of_all _ _ _ _ _ e5,
    isReal_of_all _ _ _ _ _ e6, isReal_of_all _ _ _ _ _ e9, isReal_of_all _ _ _ _ _ e12,
    isReal_of_all _ _ _ _ _ e15⟩

end Cert.Modal
-- ==== Proof.lean ====
/-
  The kernel's node embeddings are the reference's, at the extended reals.

  Both programs project two item modalities, pass them through a leaky ramp and scale each row to unit length; multiply
  node tables by three sparse matrices given as (row, column, value) triples; and mix the modality products with the
  weights `softmax(modal_weight) = (w₀, w₁)`. With `B` the adjacency's product with users-over-items, `A₁, A₂` the two
  modality products and `c` the adjacency weight, the reference forms `M = w₀ (B + c A₁) + w₁ (B + c A₂)` and returns
  `(M + adj · M) + M / 2`; the kernel folds `wₖ c` into the triples' values, forms `M' = B + A₁' + A₂'` and returns
  `M' · 3/2 + adj · M'`. Since `w₀ + w₁ = 1` and a sparse product is linear in its values, `M' = M` wherever every
  quantity is finite, and then the two results agree entry by entry. Finiteness is the precondition: on the extended
  reals a scalar does not distribute over a sum that holds both infinities.

  The kernel's run and each region's array are read off the generated frame; the reference's run is its generated run;
  `preserves` asks nothing, the idealization being the program's own text.
-/
import proofs.«173485_j29618094473950_2_alg».proof.Defs
import proofs.«173485_j29618094473950_2_alg».proof.Proof.Gen.Kernel
import proofs.«173485_j29618094473950_2_alg».proof.Proof.Gen.Kernel.Skeleton
import proofs.«173485_j29618094473950_2_alg».proof.Proof.Gen.Kernel.Launch
import proofs.«173485_j29618094473950_2_alg».proof.Proof.Gen.Kernel.Points
import proofs.«173485_j29618094473950_2_alg».proof.Proof.Gen.Kernel.Frame
import proofs.«173485_j29618094473950_2_alg».proof.Proof.Gen.KernelIdeal
import proofs.«173485_j29618094473950_2_alg».proof.Proof.Gen.KernelIdeal.Skeleton
import proofs.«173485_j29618094473950_2_alg».proof.Proof.Gen.KernelIdeal.Launch
import proofs.«173485_j29618094473950_2_alg».proof.Proof.Gen.KernelIdeal.Points
import proofs.«173485_j29618094473950_2_alg».proof.Proof.Gen.KernelIdeal.Frame
import proofs.«173485_j29618094473950_2_alg».proof.Proof.Gen.ReferenceIdeal
import proofs.«173485_j29618094473950_2_alg».proof.Proof.Gen.Pre_finite_inputs
import proofs.«173485_j29618094473950_2_alg».proof.Proof.Gen.ReferenceIdeal.Run
import proofs.«173485_j29618094473950_2_alg».proof.Proof.Gen.ReferenceIdeal.Read
import proofs.«173485_j29618094473950_2_alg».proof.Proof.KernelResult
import proofs.«173485_j29618094473950_2_alg».proof.Proof.RefValue
import proofs.«173485_j29618094473950_2_alg».proof.Proof.Algebra
import proofs.«173485_j29618094473950_2_alg».proof.Proof.Weights
import proofs.«173485_j29618094473950_2_alg».proof.Proof.ProjReal
import proofs.«173485_j29618094473950_2_alg».proof.Proof.FiniteInputs
import Idealize.ShloMosaic.Adequacy
import Idealize.ShloMosaic.Init

noncomputable section

namespace Cert.Proof

open Idealize.ShloMosaic Idealize.SL.Sem Cert.Modal

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the sixteen arguments, all finite, both idealized programs end with the users' and the
    items' rows of one array: the kernel's final array, which is the reference's. -/
theorem algebraic : Cert.algebraic_KernelIdeal_ReferenceIdeal := by
  intro m ρ m' ρ' hpre hagree
  refine ⟨_, _, Cert.Modal.Ker.run_value m ρ, ?_⟩
  refine (θ_run Cert.ReferenceIdeal.defs _ _).mono (fun r h c => ?_) (Cert.ReferenceIdeal.Value.run (F := Ideal) m' ρ')
  obtain ⟨h0, h1, h2, h3, h4, h5, h6, h9, h12, h15⟩ := Cert.Modal.inputs_real m hpre c
  have hfin := Cert.Modal.final_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (projNorm 1024 (m ((c.tc : Thread Cert.KernelIdeal.nD Cert.KernelIdeal.τ).loc Cert.KernelIdeal.main_arg2)) (m ((c.tc : Thread Cert.KernelIdeal.nD Cert.KernelIdeal.τ).loc Cert.KernelIdeal.main_arg4)))
    (projNorm 768 (m ((c.tc : Thread Cert.KernelIdeal.nD Cert.KernelIdeal.τ).loc Cert.KernelIdeal.main_arg3)) (m ((c.tc : Thread Cert.KernelIdeal.nD Cert.KernelIdeal.τ).loc Cert.KernelIdeal.main_arg5)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    h0 h1 (projNorm_isReal 1024 _ _ h2 h4) (projNorm_isReal 768 _ _ h3 h5) h9 h12 h15 (weights_real _ h6)
  obtain ⟨a0, a1, a2, a3, a4, a5, a6, a7, a8, a9, a10, a11, a12, a13, a14, a15⟩ := hagree c
  have hU := (h c).1.trans (Cert.Modal.Ref.ref_out0 m' c)
  have hI := (h c).2.1.trans (Cert.Modal.Ref.ref_out1 m' c)
  rw [a0, a1, a2, a3, a4, a5, a6, a7, a8, a9, a10, a11, a12, a13, a14, a15] at hU hI
  have eU := congrArg (fun M => extractStridedSlice ShU ![0, 0] M hslU) hfin.symm
  have eI := congrArg (fun M => extractStridedSlice ShI ![100000, 0] M hslI) hfin.symm
  have hU' := hU.trans eU
  have hI' := hI.trans eI
  exact ⟨hU', hI', (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
